-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8192x512 .f32) (main_arg1 : FVec F S8192x8192 .f32) (main_arg2 : FVec F S512x512 .f32) (main_arg3 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩
abbrev S1x8192 : Shape := ⟨2, ![1, 8192]⟩
abbrev S1024x1024 : Shape := ⟨2, ![1024, 1024]⟩
abbrev S1x1024 : Shape := ⟨2, ![1, 1024]⟩
abbrev S1024 : Shape := ⟨1, ![1024]⟩
abbrev S8192x1 : Shape := ⟨2, ![8192, 1]⟩
abbrev S512x2048 : Shape := ⟨2, ![512, 2048]⟩
abbrev S2048x512 : Shape := ⟨2, ![2048, 512]⟩
abbrev S512x1 : Shape := ⟨2, ![512, 1]⟩

abbrev nBuf : Space → Nat
  | .hbm => 9
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S1x512, .f32⟩
  | .hbm, ⟨5, _⟩ => ⟨S8192x512, .bf16⟩
  | .hbm, ⟨6, _⟩ => ⟨S1x8192, .f32⟩
  | .hbm, ⟨7, _⟩ => ⟨S8192x1, .f32⟩
  | .hbm, ⟨8, _⟩ => ⟨S8192x512, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S512x2048, .f32⟩
  | .local _ .vmem, ⟨11, _⟩ => ⟨S512x2048, .f32⟩
  | .local _ .vmem, ⟨12, _⟩ => ⟨S2048x512, .bf16⟩
  | .local _ .vmem, ⟨13, _⟩ => ⟨S2048x512, .bf16⟩
  | .local _ .vmem, ⟨14, _⟩ => ⟨S512x1, .f32⟩
  | .local _ .vmem, ⟨15, _⟩ => ⟨S512x1, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![16, 4], ![false, false]⟩

def k2_cond2 (i : grid2.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_9 : BitVec 32 := 0#32
  let v19 : BitVec 1 := Scalar.cmpi .ne v18 c0_i32_9
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  inb_S1x1024_S1x1024_0_0 : ∀ a, (![0, 0] : Fin 2 → Nat) a + S1x1024.size a ≤ S1x1024.size a
  h_S1x1024 : 0 < S1x1024.numel
  inb_S1024x1024_S1024x1024_0_0 : ∀ a, (![0, 0] : Fin 2 → Nat) a + S1024x1024.size a ≤ S1024x1024.size a
  h_S1024x1024 : 0 < S1024x1024.numel
  natLt_1_32 : 1 < 32
  shapeCasts_S1x1024_S1x1024 : S1x1024.ShapeCasts S1x1024
  reduces_S1024x1024_S1024 : S1024x1024.Reduces [0] S1024
  shapeCasts_S1024_S1x1024 : S1024.ShapeCasts S1x1024
  shapeCasts_S1x8192_S8192x1 : S1x8192.ShapeCasts S8192x1
  shapeCasts_S512x512_S512x512 : S512x512.ShapeCasts S512x512
  inb_S512x2048_S512x2048_0_0 : ∀ a, (![0, 0] : Fin 2 → Nat) a + S512x2048.size a ≤ S512x2048.size a
  h_S512x2048 : 0 < S512x2048.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  dot_S1024x512_S512x512_S1024x512_1_0_0_1_n_n_wf : DotDims.WF S1024x512 S512x512 S1024x512 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .f32 = 32 ∨ (Rect.block (s := S8192x8192) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S8192x8192.size a
  hwx2_0 : ∀ i : grid2.Coords, EltTy.bits .f32 = 32 ∨ (Rect.block (s := S8192x8192) S512x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S8192x512.size a
  hwx2_1 : ∀ i : grid2.Coords, EltTy.bits .bf16 = 32 ∨ (Rect.block (s := S8192x512) S2048x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S8192x1.size a
  hwx2_2 : ∀ i : grid2.Coords, EltTy.bits .f32 = 32 ∨ (Rect.block (s := S8192x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S8192x512.size a
  hwx2_3 : ∀ i : grid2.Coords, EltTy.bits .f32 = 32 ∨ (Rect.block (s := S8192x512) S512x512.size (cc2_transform_3 i) (hinb2_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1024.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_arg1) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x512 : Shape := ⟨2, ![512, 512]⟩
abbrev S512 : Shape := ⟨1, ![512]⟩
abbrev S_ : Shape := ⟨0, ![]⟩
abbrev S1x512 : Shape := ⟨2, ![1, 512]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S8192x8192, .f32⟩
  | .hbm, ⟨6, _⟩ => ⟨S8192x8192, .i1⟩
  | .hbm, ⟨7, _⟩ => ⟨S8192x8192, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192, .f32⟩
  | .hbm, ⟨14, _⟩ => ⟨S8192x512, .f32⟩
  | .hbm, ⟨15, _⟩ => ⟨S8192x1, .f32⟩
  | .hbm, ⟨16, _⟩ => ⟨S8192x512, .f32⟩
  | .hbm, ⟨17, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192x8192_S8192_d0 : S8192x8192.ReducesTo [0] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  dot_S8192x512_S512x512_S8192x512_1_0_0_1_n_n_wf : DotDims.WF S8192x512 S512x512 S8192x512 [1] [0] [0] [1] [] []
  dot_S8192x8192_S8192x512_S8192x512_1_0_0_1_n_n_wf : DotDims.WF S8192x8192 S8192x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.KReg0.lean ====
/-
  The first region: the linear layer, one block of 1024 rows per grid point. Each point loads its block of the
  features, the whole weight matrix and the bias row, and stores the block's product plus bias; nothing is kept
  between points. Stated at any contents `V` of the buffers when the region is entered.
-/
import proofs.«180413_j79706003079298_1_alg».proof.Proof.Gen.Kernel.Launch
import proofs.«180413_j79706003079298_1_alg».proof.Proof.Gen.Kernel.Skeleton
import proofs.«180413_j79706003079298_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S1024x512 := Rect.unit (s := S1024x512) ![0, 0] S1024x512.size inb_S1024x512_S1024x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0

/-- What the body leaves in the output block's buffer: its one store, of the payload of the three loads. -/
def out0_3 (x0 : Vec F S1024x512 .f32) (x1 : Vec F S512x512 .f32) (x2 : Vec F S1x512 .f32) : Vec F S1024x512 .bf16 :=
  View.canon [⟨rX0, k0_pay1 (View.ld x0 rX0) (View.ld x1 rW0) (View.ld x2 rB0)⟩]

/-- The one store covers the buffer. -/
theorem cover0_3 (p0 : Vec F S1024x512 .bf16) (y : S1024x512.Idx) :
    ∃ pc ∈ ([⟨rX0, p0⟩] : List (View.Piece (Elt F) S1024x512 .bf16)), y ∈ pc.1.set :=
  View.cover_of_tiled [⟨rX0, p0⟩] S1024x512.size (by rfl) y

set_option maxHeartbeats 1000000 in
/-- The body on whole staging buffers: the inputs come back as they were, the output holds `out0_3` of them. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1024x512 .bf16) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__hidden_kernel i arg1 harg1 arg2 harg2 arg3 harg3 arg4 harg4) K := by
  simp only [cc0__hidden_kernel_eq_skeleton]; unfold cc0__hidden_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data: the arrays as found; after the body each input's buffer at its block and the output's
    at `out0_3` of the input blocks; the scoped rest untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KReg1Runs.lean ====
/-
  The second region: the column counts of the binarized adjacency, one block of 1024 columns per value of the first
  grid coordinate, accumulated over the eight row tiles the second coordinate walks through. What the region's
  cases share: the windows' blocks, the condition "first row tile" in closed form, and the body run in each of the
  two cases, with what its stores leave in the output block's buffer found as the run's witness.
-/
import proofs.«180413_j79706003079298_1_alg».proof.Proof.Gen.Kernel.Launch
import proofs.«180413_j79706003079298_1_alg».proof.Proof.Gen.Kernel.Skeleton
import proofs.«180413_j79706003079298_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's condition "this is the first row tile", from the grid coordinates. -/
abbrev cond1_0 (i : grid1.Coords) : Prop := (Scalar.cmpi .ne (Scalar.extui (Scalar.cmpi .eq (BitVec.ofNat 32 (i 1).val) 0#32)) 0#32) = 1#1
/-- It holds exactly at the points whose position is a multiple of eight. -/
theorem hcond1_0 : ∀ t : Fin cfg1.N, cond1_0 (grid1.coords t) ↔ t.val % 8 = 0 :=
  (by decide +kernel : ∀ t : Fin grid1.N, cond1_0 (grid1.coords t) ↔ t.val % 8 = 0)

/-- One staging buffer of the output window, through which its contents are stated. -/
abbrev VO1_1 : View sig .tc .vmem S1x1024 .f32 := (Memref.whole cc1_stg1_0 : Memref sig .tc .vmem S1x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)

set_option maxHeartbeats 2000000 in
/-- The first row tile: the output block is zeroed, then the tile's column counts are added to it. -/
noncomputable def kernelRun1_A (c : Dev nD) (i : grid1.Coords) (arg2 : Memref sig .tc .vmem S1024x1024 .f32) (harg2 : arg2.IsWhole) (arg3 : Memref sig .tc .vmem S1x1024 .f32) (harg3 : arg3.IsWhole) (hc0 : cond1_0 i)
    (x0 : Vec F S1024x1024 .f32) :
    { L1 : List (View.Piece (Elt F) S1x1024 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__deg_kernel i arg2 harg2 arg3 harg3) K } := by
  refine ⟨?_, fun E K => ?run⟩
  case run =>
    simp only [cc1__deg_kernel_eq_skeleton]; unfold cc1__deg_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 2000000 in
/-- A later row tile: the tile's column counts are added to what the block's buffer holds. -/
noncomputable def kernelRun1_B (c : Dev nD) (i : grid1.Coords) (arg2 : Memref sig .tc .vmem S1024x1024 .f32) (harg2 : arg2.IsWhole) (arg3 : Memref sig .tc .vmem S1x1024 .f32) (harg3 : arg3.IsWhole) (hc0 : ¬cond1_0 i)
    (x0 : Vec F S1024x1024 .f32) (xo1 : Vec F S1x1024 .f32) :
    { L1 : List (View.Piece (Elt F) S1x1024 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__deg_kernel i arg2 harg2 arg3 harg3) K } := by
  refine ⟨?_, fun E K => ?run⟩
  case run =>
    simp only [cc1__deg_kernel_eq_skeleton]; unfold cc1__deg_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.Kernel.Fr

end
-- ==== Proof.KReg1.lean ====
/-
  The second region, continued: what the output block's buffer holds after each grid point (the running column
  counts), the region's proof data, and the body obligation at every point.
-/
import proofs.«180413_j79706003079298_1_alg».proof.Proof.KReg1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_A_1 (c : Dev nD) (i : grid1.Coords) (arg2 : Memref sig .tc .vmem S1024x1024 .f32) (harg2 : arg2.IsWhole) (arg3 : Memref sig .tc .vmem S1x1024 .f32) (harg3 : arg3.IsWhole) (hc0 : cond1_0 i)
    (x0 : Vec F S1024x1024 .f32) (y : S1x1024.Idx) :
    ∃ pc ∈ (kernelRun1_A c i arg2 harg2 arg3 harg3 hc0 x0).1, y ∈ pc.1.set :=
  View.cover_of_tiledL (kernelRun1_A c i arg2 harg2 arg3 harg3 hc0 x0).1 S1x1024.size (by sl_kernel_rfl) y

/-- What the first row tile leaves in the output block's buffer. -/
def out1_A_1 (c : Dev nD) (i : grid1.Coords) (arg2 : Memref sig .tc .vmem S1024x1024 .f32) (harg2 : arg2.IsWhole) (arg3 : Memref sig .tc .vmem S1x1024 .f32) (harg3 : arg3.IsWhole) (hc0 : cond1_0 i)
    (x0 : Vec F S1024x1024 .f32) : Vec F S1x1024 .f32 :=
  VO1_1.read (Elt F) (VO1_1.writes (Elt F) VO1_1.junk (kernelRun1_A c i arg2 harg2 arg3 harg3 hc0 x0).1)

theorem cover1_B_1 (c : Dev nD) (i : grid1.Coords) (arg2 : Memref sig .tc .vmem S1024x1024 .f32) (harg2 : arg2.IsWhole) (arg3 : Memref sig .tc .vmem S1x1024 .f32) (harg3 : arg3.IsWhole) (hc0 : ¬cond1_0 i)
    (x0 : Vec F S1024x1024 .f32) (xo1 : Vec F S1x1024 .f32) (y : S1x1024.Idx) :
    ∃ pc ∈ (kernelRun1_B c i arg2 harg2 arg3 harg3 hc0 x0 xo1).1, y ∈ pc.1.set :=
  View.cover_of_tiledL (kernelRun1_B c i arg2 harg2 arg3 harg3 hc0 x0 xo1).1 S1x1024.size (by sl_kernel_rfl) y

/-- What a later row tile leaves in the output block's buffer, over what it found there. -/
def out1_B_1 (c : Dev nD) (i : grid1.Coords) (arg2 : Memref sig .tc .vmem S1024x1024 .f32) (harg2 : arg2.IsWhole) (arg3 : Memref sig .tc .vmem S1x1024 .f32) (harg3 : arg3.IsWhole) (hc0 : ¬cond1_0 i)
    (x0 : Vec F S1024x1024 .f32) (xo1 : Vec F S1x1024 .f32) : Vec F S1x1024 .f32 :=
  VO1_1.read (Elt F) (VO1_1.writes (Elt F) VO1_1.junk (kernelRun1_B c i arg2 harg2 arg3 harg3 hc0 x0 xo1).1)

/-- The running column counts: what the output block's buffer holds after the body at position `n`. -/
def outsAt1 (c : Dev nD) : (n : ℕ) → n < cfg1.N → Vec F S1x1024 .f32
  | 0, hn => out1_A_1 c (grid1.coords ⟨0, hn⟩) (ms1_0 ⟨0, hn⟩) (hs1_0 ⟨0, hn⟩) (ms1_1 ⟨0, hn⟩) (hs1_1 ⟨0, hn⟩) ((hcond1_0 ⟨0, hn⟩).mpr (Nat.zero_mod _)) (iblk1 V c 0 ⟨0, hn⟩)
  | n + 1, hn =>
    if h0 : (n + 1) % 8 = 0 then
      out1_A_1 c (grid1.coords ⟨n + 1, hn⟩) (ms1_0 ⟨n + 1, hn⟩) (hs1_0 ⟨n + 1, hn⟩) (ms1_1 ⟨n + 1, hn⟩) (hs1_1 ⟨n + 1, hn⟩) ((hcond1_0 ⟨n + 1, hn⟩).mpr h0) (iblk1 V c 0 ⟨n + 1, hn⟩)
    else
      out1_B_1 c (grid1.coords ⟨n + 1, hn⟩) (ms1_0 ⟨n + 1, hn⟩) (hs1_0 ⟨n + 1, hn⟩) (ms1_1 ⟨n + 1, hn⟩) (hs1_1 ⟨n + 1, hn⟩) (fun h => h0 ((hcond1_0 ⟨n + 1, hn⟩).mp h)) (iblk1 V c 0 ⟨n + 1, hn⟩) (outsAt1 c n (Nat.lt_of_succ_lt hn))

theorem outsAt1_A (c : Dev nD) (t : Fin cfg1.N) (h0 : t.val % 8 = 0) :
    outsAt1 V c t.val t.isLt = out1_A_1 c (grid1.coords t) (ms1_0 t) (hs1_0 t) (ms1_1 t) (hs1_1 t) ((hcond1_0 t).mpr h0) (iblk1 V c 0 t) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = out1_B_1 c (grid1.coords t) (ms1_0 t) (hs1_0 t) (ms1_1 t) (hs1_1 t) (fun h => h0 ((hcond1_0 t).mp h)) (iblk1 V c 0 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
/-- At a later row tile the output block's buffer holds what the body left at the point before: the block was not
    written back in between. -/
theorem before1_1_B (c : Dev nD) (t : Fin cfg1.N) (h0 : ¬t.val % 8 = 0) (d) :
    (dat1 V c).before 1 t d = (outsAt1 V c (t.val - 1) (Nat.lt_of_le_of_lt (Nat.sub_le _ _) t.isLt)) := by
  have hN : t.val < 64 := lt_of_lt_of_eq t.isLt (show cfg1.N = 64 from N_1)
  rw [Dat.before_out_kept _ 1 rfl t (by omega) (Bool.eq_false_iff.mpr fun h => by have := (flush1_1 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  have hN : t.val < 64 := lt_of_lt_of_eq t.isLt (show cfg1.N = 64 from N_1)
  by_cases h0 : t.val % 8 = 0
  · rw [outsAt1_A V c t h0]
    unfold out1_A_1
    iintro ⟨HΦ, Ho, ⟨%d0, H0⟩, ⟨%d1, H1⟩⟩
    iapply ((kernelRun1_A c (grid1.coords t) _ _ _ _ ((hcond1_0 t).mpr h0) (iblk1 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_A_1 c _ _ _ _ _ _ _)
  · rw [outsAt1_B V c t h0]
    simp only [before1_1_B V c t h0]
    unfold out1_B_1
    iintro ⟨HΦ, Ho, ⟨%d0, H0⟩, ⟨%d1, H1⟩⟩
    iapply ((kernelRun1_B c (grid1.coords t) _ _ _ _ (fun h => h0 ((hcond1_0 t).mp h)) (iblk1 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_B_1 c _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KReg2Runs.lean ====
/-
  The third region: the product of the binarized adjacency with the linear layer's output, one block of 512 rows
  per value of the first grid coordinate, accumulated in a scratch buffer over the four column tiles the second
  coordinate walks through, and divided by the row's count at the last tile. What the region's cases share: the
  windows' blocks, the two conditions ("first tile", "last tile") in closed form, where the output window is idle,
  and the body run in each of the three cases, with what its stores leave in the output block's buffer and in the
  scratch found as the run's witnesses.
-/
import proofs.«180413_j79706003079298_1_alg».proof.Proof.Gen.Kernel.Launch
import proofs.«180413_j79706003079298_1_alg».proof.Proof.Gen.Kernel.Skeleton
import proofs.«180413_j79706003079298_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's condition "this is the first column tile", from the grid coordinates. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The body's condition "this is the last column tile". -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last tile the output window is idle and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last tile it is live. -/
theorem liveAt2_3 : ∀ t : Fin cfg2.N, cond2_1 (grid2.coords t) → cfg2.idle 3 (grid2.coords t) = false := by decide +kernel

abbrev VO2_3 : View sig .tc .vmem S512x512 .f32 := (Memref.whole cc2_stg3_0 : Memref sig .tc .vmem S512x512 .f32).view
abbrev ms2_0 (t : Fin cfg2.N) : Memref sig .tc .vmem S512x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .f32 := win2_3.stage (cfg2.slots t 3)
abbrev hs2_3 (t : Fin cfg2.N) : (ms2_3 t).IsWhole := hstage2_3 ((cfg2.slots t 3).cast nbuf2_3)
/-- The scratch accumulator: a whole scoped buffer of the kernel's own, passed beside the windows. -/
abbrev scM2 : Memref sig .tc .vmem S512x512 .f32 := Memref.whole cc2_scratch0
abbrev VS2 : View sig .tc .vmem S512x512 .f32 := scM2.view

/-- The class invariant with the scratch accumulator as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2 fullShare d)) ∗ (∃ r, prngReg c r)) := by
  unfold Pipeline.ΦA; rw [scopedRest2_eq]; simp only [scM2, owns_whole]; try rfl

set_option maxHeartbeats 4000000 in
/-- The first column tile: the scratch is zeroed, then the tile's product is added to it; the output block is not
    touched. -/
noncomputable def kernelRun2_A (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x2048 .f32) (x1 : Vec F S2048x512 .bf16) (x2 : Vec F S512x1 .f32) :
    { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__numer_kernel i arg2 harg2 arg3 harg3 arg4 harg4 arg5 harg5 arg6 harg6) K } := by
  refine ⟨?_, fun xi3 E K => ?run⟩
  case run =>
    simp only [cc2__numer_kernel_eq_skeleton]; unfold cc2__numer_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- A middle column tile: the tile's product is added to what the scratch holds; the output block is not touched. -/
noncomputable def kernelRun2_B (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x2048 .f32) (x1 : Vec F S2048x512 .bf16) (x2 : Vec F S512x1 .f32) (xs0 : Vec F S512x512 .f32) :
    { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__numer_kernel i arg2 harg2 arg3 harg3 arg4 harg4 arg5 harg5 arg6 harg6) K } := by
  refine ⟨?_, fun xi3 E K => ?run⟩
  case run =>
    simp only [cc2__numer_kernel_eq_skeleton]; unfold cc2__numer_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The last column tile: the tile's product is added to the scratch, and the output block is stored: the scratch
    divided, row by row, by the block of counts. -/
noncomputable def kernelRun2_C (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x2048 .f32) (x1 : Vec F S2048x512 .bf16) (x2 : Vec F S512x1 .f32) (xs0 : Vec F S512x512 .f32) :
    Σ' (L3 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__numer_kernel i arg2 harg2 arg3 harg3 arg4 harg4 arg5 harg5 arg6 harg6) K } := by
  refine ⟨?_, ?_, fun E K => ?run⟩
  case run =>
    simp only [cc2__numer_kernel_eq_skeleton]; unfold cc2__numer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.KReg2.lean ====
/-
  The third region, continued: what the scratch accumulator and the output block's buffer hold after each grid
  point, the invariant that carries the accumulator from one point to the next, the region's proof data, and the
  body obligation at every point.
-/
import proofs.«180413_j79706003079298_1_alg».proof.Proof.KReg2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover2_A (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x2048 .f32) (x1 : Vec F S2048x512 .bf16) (x2 : Vec F S512x1 .f32) (y : S512x512.Idx) :
    ∃ pc ∈ (kernelRun2_A c i arg2 harg2 arg3 harg3 arg4 harg4 arg5 harg5 arg6 harg6 hc0 hc1 x0 x1 x2).1, y ∈ pc.1.set :=
  View.cover_of_tiledL (kernelRun2_A c i arg2 harg2 arg3 harg3 arg4 harg4 arg5 harg5 arg6 harg6 hc0 hc1 x0 x1 x2).1 S512x512.size (by sl_kernel_rfl) y

/-- What the first column tile leaves in the scratch accumulator. -/
def sout2_A (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x2048 .f32) (x1 : Vec F S2048x512 .bf16) (x2 : Vec F S512x1 .f32) : Vec F S512x512 .f32 :=
  VS2.read (Elt F) (VS2.writes (Elt F) VS2.junk (kernelRun2_A c i arg2 harg2 arg3 harg3 arg4 harg4 arg5 harg5 arg6 harg6 hc0 hc1 x0 x1 x2).1)

theorem scover2_B (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x2048 .f32) (x1 : Vec F S2048x512 .bf16) (x2 : Vec F S512x1 .f32) (xs0 : Vec F S512x512 .f32) (y : S512x512.Idx) :
    ∃ pc ∈ (kernelRun2_B c i arg2 harg2 arg3 harg3 arg4 harg4 arg5 harg5 arg6 harg6 hc0 hc1 x0 x1 x2 xs0).1, y ∈ pc.1.set :=
  View.cover_of_tiledL (kernelRun2_B c i arg2 harg2 arg3 harg3 arg4 harg4 arg5 harg5 arg6 harg6 hc0 hc1 x0 x1 x2 xs0).1 S512x512.size (by sl_kernel_rfl) y

/-- What a middle column tile leaves in the scratch accumulator, over what it found there. -/
def sout2_B (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x2048 .f32) (x1 : Vec F S2048x512 .bf16) (x2 : Vec F S512x1 .f32) (xs0 : Vec F S512x512 .f32) : Vec F S512x512 .f32 :=
  VS2.read (Elt F) (VS2.writes (Elt F) VS2.junk (kernelRun2_B c i arg2 harg2 arg3 harg3 arg4 harg4 arg5 harg5 arg6 harg6 hc0 hc1 x0 x1 x2 xs0).1)

theorem cover2_C (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x2048 .f32) (x1 : Vec F S2048x512 .bf16) (x2 : Vec F S512x1 .f32) (xs0 : Vec F S512x512 .f32) (y : S512x512.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x512.size (by sl_kernel_rfl) y

/-- What the last column tile leaves in the output block's buffer. -/
def out2_C (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x2048 .f32) (x1 : Vec F S2048x512 .bf16) (x2 : Vec F S512x1 .f32) (xs0 : Vec F S512x512 .f32) : Vec F S512x512 .f32 :=
  VO2_3.read (Elt F) (VO2_3.writes (Elt F) VO2_3.junk (kernelRun2_C c i arg2 harg2 arg3 harg3 arg4 harg4 arg5 harg5 arg6 harg6 hc0 hc1 x0 x1 x2 xs0).1)

theorem scover2_C (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x2048 .f32) (x1 : Vec F S2048x512 .bf16) (x2 : Vec F S512x1 .f32) (xs0 : Vec F S512x512 .f32) (y : S512x512.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x512.size (by sl_kernel_rfl) y

/-- What the last column tile leaves in the scratch accumulator. -/
def sout2_C (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x2048 .f32) (x1 : Vec F S2048x512 .bf16) (x2 : Vec F S512x1 .f32) (xs0 : Vec F S512x512 .f32) : Vec F S512x512 .f32 :=
  VS2.read (Elt F) (VS2.writes (Elt F) VS2.junk (kernelRun2_C c i arg2 harg2 arg3 harg3 arg4 harg4 arg5 harg5 arg6 harg6 hc0 hc1 x0 x1 x2 xs0).2.1)

/-- A placeholder for the output block's buffer at the points where the body does not store into it (the window is
    idle there and the block is not written back: nothing consults it). -/
def idleOut : Vec F S512x512 .f32 := VO2_3.read (Elt F) VO2_3.junk

/-- What the output block's buffer (first component) and the scratch accumulator (second) hold after the body at
    position `n`: the case the position selects, run at the point's blocks, over what the point before left in the
    accumulator. -/
def outsAt2 (c : Dev nD) : (n : ℕ) → n < cfg2.N → Vec F S512x512 .f32 × Vec F S512x512 .f32
  | 0, hn => (idleOut, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (idleOut, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (idleOut, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (idleOut, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The other kernels' staging buffers: scoped buffers this region never touches, each held at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class invariant, the scratch accumulator set apart from the other kernels' buffers. -/
theorem PhiA2_split (c : Dev nD) :
    (Pipeline.ΦA spec2 c : sProp 𝕄) ⊣⊢ iprop((others c ∗ (∃ d, owns (c : Thread nD τ) scM2 fullShare d)) ∗ (∃ r, prngReg c r)) := by
  rw [PhiA2_eq]; unfold others
  constructor
  · iintro ⟨⟨H1, H2, H3, H4, H5, H6, H7, H8, H9, H10, HS⟩, Hg⟩
    isplitr [Hg]
    · isplitr [HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      iexact HS
    iexact Hg
  · iintro ⟨⟨⟨H1, H2, H3, H4, H5, H6, H7, H8, H9, H10⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    iexact Hg

/-- The region's invariant before position `n`: before the first point the class's; afterwards the other kernels'
    buffers at anything, the scratch accumulator at what the point before left in it, and the generator register at
    some state. -/
def PhiS (c : Dev nD) : (n : ℕ) → n ≤ cfg2.N → sProp 𝕄
  | 0, _ => Pipeline.ΦA spec2 c
  | n + 1, hn => iprop((others c ∗ owns (c : Thread nD τ) scM2 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop((others c ∗ owns (c : Thread nD τ) scM2 fullShare ((outsAt2 V c n hn).2)) ∗ (∃ r, prngReg c r)) := rfl

theorem PhiS_pos (c : Dev nD) (n : ℕ) (h : n ≤ cfg2.N) (hz : n ≠ 0) :
    PhiS V c n h = iprop((others c ∗ owns (c : Thread nD τ) scM2 fullShare ((outsAt2 V c (n - 1) (by omega)).2)) ∗ (∃ r, prngReg c r)) := by
  cases n with
  | zero => exact absurd rfl hz
  | succ n => rfl

/-- The region's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 6400000 in
/-- The body at any point. The position says which case the point is in; the invariant hands the body the scratch
    accumulator at what the point before left (at anything at a block's first tile) and takes it back at this point's
    contents; the other kernels' buffers, the generator register and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  rw [leaves2_0, leaves2_1, leaves2_2]
  have hN : t.val < 64 := lt_of_lt_of_eq t.isLt (show cfg2.N = 64 from N_2)
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold sout2_A; (try dsimp only)
    by_cases hz : t.val = 0
    · rw [PhiS_castSucc V c t, PhiS_zero V c _ _ hz]
      refine (sep_mono (PhiA2_split c).1 .rfl).trans ?_
      iintro ⟨⟨⟨Hoth, HS0⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitr [Hg]
        · isplitl [Hoth]; · iexact Hoth
          unfold owns; iexists _; isplitr
          swap; · iexact HS0
          ipureintro; exact View.read_writes_of_cover _ _ _ _ _ (scover2_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hoth]
      · isplitr [Hg]
        · isplitl [Hoth]; · iexact Hoth
          unfold owns; iexists _; isplitr
          swap; · iexact HS0
          ipureintro; exact View.read_writes_of_cover _ _ _ _ _ (scover2_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C sout2_C; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hoth]
      · isplitr [Hg]
        · isplitl [Hoth]; · iexact Hoth
          unfold owns; iexists _; isplitr
          swap; · iexact HS0
          ipureintro; exact View.read_writes_of_cover _ _ _ _ _ (scover2_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitr [Hg]
        · isplitl [Hoth]; · iexact Hoth
          unfold owns; iexists _; isplitr
          swap; · iexact HS0
          ipureintro; exact View.read_writes_of_cover _ _ _ _ _ (scover2_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the region is handed (the class invariant) is its invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the class invariant back: what the accumulator holds is forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS V c (Fin.last cfg2.N).val (Nat.le_of_lt_succ (Fin.last cfg2.N).isLt) from rfl, PhiS_pos V c _ _ ht]
  refine .trans ?_ (PhiA2_split c).2
  iintro ⟨⟨Hoth, HS0⟩, Hg⟩
  isplitr [Hg]
  · isplitl [Hoth]; · iexact Hoth
    iexists _; iexact HS0
  iexact Hg

end Cert.Kernel.Fr

end
-- ==== Proof.KRun.lean ====
/-
  The whole program's run: the buffers' contents at each boundary between the host operations and the three
  regions, folded from the launch memory; the three regions as segments over the thread state "every unscoped
  buffer at the boundary's contents, the generator register at some state, nothing owed"; and the run itself, ending
  with every unscoped buffer at the last boundary's contents — in particular the argument arrays as launched and the
  result array at what the third region's write-backs leave.
-/
import proofs.«180413_j79706003079298_1_alg».proof.Proof.KReg0
import proofs.«180413_j79706003079298_1_alg».proof.Proof.KReg1
import proofs.«180413_j79706003079298_1_alg».proof.Proof.KReg2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the reshape of the bias (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the reshape of the counts into a column (the third region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (the inputs as entered, the output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### The adjacency reaches the third region as launched, and every argument ends as launched -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := (W3_arr m ρ c 0).trans (((dat1 (V2 m ρ) c).arrAt_in 0 rfl _).trans (A_eq1 (V2 m ρ) c 0))
    _ = m ((c : Thread nD τ).loc main_arg1) := W2_main_arg1 m ρ c

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := (W5_arr m ρ c 0).trans (((dat2 (V4 m ρ) c).arrAt_in 0 rfl _).trans (A_eq2 (V4 m ρ) c 0))
    _ = m ((c : Thread nD τ).loc main_arg1) := W4_main_arg1 m ρ c
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are
    split out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)),
    .region (reg2 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution of the program
    terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Fr

end
-- ==== Proof.Reg0.lean ====
/-
  The first region: the linear layer, one block of 1024 rows per grid point. Each point loads its block of the
  features, the whole weight matrix and the bias row, and stores the block's product plus bias; nothing is kept
  between points. Stated at any contents `V` of the buffers when the region is entered.
-/
import proofs.«180413_j79706003079298_1_alg».proof.Proof.Gen.KernelIdeal.Launch
import proofs.«180413_j79706003079298_1_alg».proof.Proof.Gen.KernelIdeal.Skeleton
import proofs.«180413_j79706003079298_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rX0 : Rect S1024x512 := Rect.unit (s := S1024x512) ![0, 0] S1024x512.size inb_S1024x512_S1024x512_0_0
abbrev rW0 : Rect S512x512 := Rect.unit (s := S512x512) ![0, 0] S512x512.size inb_S512x512_S512x512_0_0
abbrev rB0 : Rect S1x512 := Rect.unit (s := S1x512) ![0, 0] S1x512.size inb_S1x512_S1x512_0_0

/-- What the body leaves in the output block's buffer: its one store, of the payload of the three loads. -/
def out0_3 (x0 : Vec F S1024x512 .f32) (x1 : Vec F S512x512 .f32) (x2 : Vec F S1x512 .f32) : Vec F S1024x512 .bf16 :=
  View.canon [⟨rX0, k0_pay1 (View.ld x0 rX0) (View.ld x1 rW0) (View.ld x2 rB0)⟩]

/-- The one store covers the buffer. -/
theorem cover0_3 (p0 : Vec F S1024x512 .bf16) (y : S1024x512.Idx) :
    ∃ pc ∈ ([⟨rX0, p0⟩] : List (View.Piece (Elt F) S1024x512 .bf16)), y ∈ pc.1.set :=
  View.cover_of_tiled [⟨rX0, p0⟩] S1024x512.size (by rfl) y

set_option maxHeartbeats 1000000 in
/-- The body on whole staging buffers: the inputs come back as they were, the output holds `out0_3` of them. -/
theorem sound_kernel0 (c : Dev nD) (E : Set ℕ) (i : grid0.Coords) (arg1 : Memref sig .tc .vmem S1024x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S1024x512 .bf16) (harg4 : arg4.IsWhole)
    (x0 : Vec F S1024x512 .f32) (x1 : Vec F S512x512 .f32) (x2 : Vec F S1x512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__hidden_kernel i arg1 harg1 arg2 harg2 arg3 harg3 arg4 harg4) K := by
  simp only [cc0__hidden_kernel_eq_skeleton]; unfold cc0__hidden_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data: the arrays as found; after the body each input's buffer at its block and the output's
    at `out0_3` of the input blocks; the scoped rest untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Reg1Runs.lean ====
/-
  The second region: the column counts of the binarized adjacency, one block of 1024 columns per value of the first
  grid coordinate, accumulated over the eight row tiles the second coordinate walks through. What the region's
  cases share: the windows' blocks, the condition "first row tile" in closed form, and the body run in each of the
  two cases, with what its stores leave in the output block's buffer found as the run's witness.
-/
import proofs.«180413_j79706003079298_1_alg».proof.Proof.Gen.KernelIdeal.Launch
import proofs.«180413_j79706003079298_1_alg».proof.Proof.Gen.KernelIdeal.Skeleton
import proofs.«180413_j79706003079298_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The body's condition "this is the first row tile", from the grid coordinates. -/
abbrev cond1_0 (i : grid1.Coords) : Prop := (Scalar.cmpi .ne (Scalar.extui (Scalar.cmpi .eq (BitVec.ofNat 32 (i 1).val) 0#32)) 0#32) = 1#1
/-- It holds exactly at the points whose position is a multiple of eight. -/
theorem hcond1_0 : ∀ t : Fin cfg1.N, cond1_0 (grid1.coords t) ↔ t.val % 8 = 0 :=
  (by decide +kernel : ∀ t : Fin grid1.N, cond1_0 (grid1.coords t) ↔ t.val % 8 = 0)

/-- One staging buffer of the output window, through which its contents are stated. -/
abbrev VO1_1 : View sig .tc .vmem S1x1024 .f32 := (Memref.whole cc1_stg1_0 : Memref sig .tc .vmem S1x1024 .f32).view
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)

set_option maxHeartbeats 2000000 in
/-- The first row tile: the output block is zeroed, then the tile's column counts are added to it. -/
noncomputable def kernelRun1_A (c : Dev nD) (i : grid1.Coords) (arg2 : Memref sig .tc .vmem S1024x1024 .f32) (harg2 : arg2.IsWhole) (arg3 : Memref sig .tc .vmem S1x1024 .f32) (harg3 : arg3.IsWhole) (hc0 : cond1_0 i)
    (x0 : Vec F S1024x1024 .f32) :
    { L1 : List (View.Piece (Elt F) S1x1024 .f32) //
      ∀ (E : Set ℕ) (K : PUnit → sProp 𝕄),
        iprop(owns (c : Thread nD τ) arg2 fullShare x0 ∗ (∃ d, owns (c : Thread nD τ) arg3 fullShare d)
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__deg_kernel i arg2 harg2 arg3 harg3) K } := by
  refine ⟨?_, fun E K => ?run⟩
  case run =>
    simp only [cc1__deg_kernel_eq_skeleton]; unfold cc1__deg_kernel_skel
    unfold owns
    iintro ⟨⟨%f0, %hf0, H0⟩, ⟨%d1, %f1, -, H1⟩, Hk⟩
    obtain rfl := harg2.eq_unread hf0
    sl_exec (disch := first | exact hc0)
    sl_step
    iapply Hk
    isplitl [H0]
    · iexists _; isplitr; · ipureintro; exact harg2.read_unread _
      iexact H0
    iexists _; iexact H1

set_option maxHeartbeats 2000000 in
/-- A later row tile: the tile's column counts are added to what the block's buffer holds. -/
noncomputable def kernelRun1_B (c : Dev nD) (i : grid1.Coords) (arg2 : Memref sig .tc .vmem S1024x1024 .f32) (harg2 : arg2.IsWhole) (arg3 : Memref sig .tc .vmem S1x1024 .f32) (harg3 : arg3.IsWhole) (hc0 : ¬cond1_0 i)
    (x0 : Vec F S1024x1024 .f32) (xo1 : Vec F S1x1024 .f32) :
    { L1 : List (View.Piece (Elt F) S1x1024 .f32) //
      ∀ (E : Set ℕ) (K : PUnit → sProp 𝕄),
        iprop(owns (c : Thread nD τ) arg2 fullShare x0 ∗ owns (c : Thread nD τ) arg3 fullShare xo1
            ∗ (iprop(owns (c : Thread nD τ) arg2 fullShare x0 ∗ (∃ f, arg3.view.loc (c : Thread nD τ) ↦[arg3.view.set]{fullShare} arg3.view.writes (Elt F) f L1)) -∗ K ⟨⟩))
          ⊢ wp frame (wpE (defs₀ (F := F)) Variants.none c none) E (cc1__deg_kernel i arg2 harg2 arg3 harg3) K } := by
  refine ⟨?_, fun E K => ?run⟩
  case run =>
    simp only [cc1__deg_kernel_eq_skeleton]; unfold cc1__deg_kernel_skel
    unfold owns
    iintro ⟨⟨%f0, %hf0, H0⟩, ⟨%f1, %hf1, H1⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    iexists _; iexact H1

end Cert.KernelIdeal.Fr

end
-- ==== Proof.Reg1.lean ====
/-
  The second region, continued: what the output block's buffer holds after each grid point (the running column
  counts), the region's proof data, and the body obligation at every point.
-/
import proofs.«180413_j79706003079298_1_alg».proof.Proof.Reg1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem cover1_A_1 (c : Dev nD) (i : grid1.Coords) (arg2 : Memref sig .tc .vmem S1024x1024 .f32) (harg2 : arg2.IsWhole) (arg3 : Memref sig .tc .vmem S1x1024 .f32) (harg3 : arg3.IsWhole) (hc0 : cond1_0 i)
    (x0 : Vec F S1024x1024 .f32) (y : S1x1024.Idx) :
    ∃ pc ∈ (kernelRun1_A c i arg2 harg2 arg3 harg3 hc0 x0).1, y ∈ pc.1.set :=
  View.cover_of_tiledL (kernelRun1_A c i arg2 harg2 arg3 harg3 hc0 x0).1 S1x1024.size (by sl_kernel_rfl) y

/-- What the first row tile leaves in the output block's buffer. -/
def out1_A_1 (c : Dev nD) (i : grid1.Coords) (arg2 : Memref sig .tc .vmem S1024x1024 .f32) (harg2 : arg2.IsWhole) (arg3 : Memref sig .tc .vmem S1x1024 .f32) (harg3 : arg3.IsWhole) (hc0 : cond1_0 i)
    (x0 : Vec F S1024x1024 .f32) : Vec F S1x1024 .f32 :=
  VO1_1.read (Elt F) (VO1_1.writes (Elt F) VO1_1.junk (kernelRun1_A c i arg2 harg2 arg3 harg3 hc0 x0).1)

theorem cover1_B_1 (c : Dev nD) (i : grid1.Coords) (arg2 : Memref sig .tc .vmem S1024x1024 .f32) (harg2 : arg2.IsWhole) (arg3 : Memref sig .tc .vmem S1x1024 .f32) (harg3 : arg3.IsWhole) (hc0 : ¬cond1_0 i)
    (x0 : Vec F S1024x1024 .f32) (xo1 : Vec F S1x1024 .f32) (y : S1x1024.Idx) :
    ∃ pc ∈ (kernelRun1_B c i arg2 harg2 arg3 harg3 hc0 x0 xo1).1, y ∈ pc.1.set :=
  View.cover_of_tiledL (kernelRun1_B c i arg2 harg2 arg3 harg3 hc0 x0 xo1).1 S1x1024.size (by sl_kernel_rfl) y

/-- What a later row tile leaves in the output block's buffer, over what it found there. -/
def out1_B_1 (c : Dev nD) (i : grid1.Coords) (arg2 : Memref sig .tc .vmem S1024x1024 .f32) (harg2 : arg2.IsWhole) (arg3 : Memref sig .tc .vmem S1x1024 .f32) (harg3 : arg3.IsWhole) (hc0 : ¬cond1_0 i)
    (x0 : Vec F S1024x1024 .f32) (xo1 : Vec F S1x1024 .f32) : Vec F S1x1024 .f32 :=
  VO1_1.read (Elt F) (VO1_1.writes (Elt F) VO1_1.junk (kernelRun1_B c i arg2 harg2 arg3 harg3 hc0 x0 xo1).1)

/-- The running column counts: what the output block's buffer holds after the body at position `n`. -/
def outsAt1 (c : Dev nD) : (n : ℕ) → n < cfg1.N → Vec F S1x1024 .f32
  | 0, hn => out1_A_1 c (grid1.coords ⟨0, hn⟩) (ms1_0 ⟨0, hn⟩) (hs1_0 ⟨0, hn⟩) (ms1_1 ⟨0, hn⟩) (hs1_1 ⟨0, hn⟩) ((hcond1_0 ⟨0, hn⟩).mpr (Nat.zero_mod _)) (iblk1 V c 0 ⟨0, hn⟩)
  | n + 1, hn =>
    if h0 : (n + 1) % 8 = 0 then
      out1_A_1 c (grid1.coords ⟨n + 1, hn⟩) (ms1_0 ⟨n + 1, hn⟩) (hs1_0 ⟨n + 1, hn⟩) (ms1_1 ⟨n + 1, hn⟩) (hs1_1 ⟨n + 1, hn⟩) ((hcond1_0 ⟨n + 1, hn⟩).mpr h0) (iblk1 V c 0 ⟨n + 1, hn⟩)
    else
      out1_B_1 c (grid1.coords ⟨n + 1, hn⟩) (ms1_0 ⟨n + 1, hn⟩) (hs1_0 ⟨n + 1, hn⟩) (ms1_1 ⟨n + 1, hn⟩) (hs1_1 ⟨n + 1, hn⟩) (fun h => h0 ((hcond1_0 ⟨n + 1, hn⟩).mp h)) (iblk1 V c 0 ⟨n + 1, hn⟩) (outsAt1 c n (Nat.lt_of_succ_lt hn))

theorem outsAt1_A (c : Dev nD) (t : Fin cfg1.N) (h0 : t.val % 8 = 0) :
    outsAt1 V c t.val t.isLt = out1_A_1 c (grid1.coords t) (ms1_0 t) (hs1_0 t) (ms1_1 t) (hs1_1 t) ((hcond1_0 t).mpr h0) (iblk1 V c 0 t) := by
  obtain ⟨n, hn⟩ := t
  cases n with
  | zero => exact rfl
  | succ n => exact (dif_pos h0).trans rfl

theorem outsAt1_B (c : Dev nD) (t : Fin cfg1.N) (h0 : ¬t.val % 8 = 0) :
    outsAt1 V c t.val t.isLt = out1_B_1 c (grid1.coords t) (ms1_0 t) (hs1_0 t) (ms1_1 t) (hs1_1 t) (fun h => h0 ((hcond1_0 t).mp h)) (iblk1 V c 0 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
/-- At a later row tile the output block's buffer holds what the body left at the point before: the block was not
    written back in between. -/
theorem before1_1_B (c : Dev nD) (t : Fin cfg1.N) (h0 : ¬t.val % 8 = 0) (d) :
    (dat1 V c).before 1 t d = (outsAt1 V c (t.val - 1) (Nat.lt_of_le_of_lt (Nat.sub_le _ _) t.isLt)) := by
  have hN : t.val < 64 := lt_of_lt_of_eq t.isLt (show cfg1.N = 64 from N_1)
  rw [Dat.before_out_kept _ 1 rfl t (by omega) (Bool.eq_false_iff.mpr fun h => by have := (flush1_1 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  have hN : t.val < 64 := lt_of_lt_of_eq t.isLt (show cfg1.N = 64 from N_1)
  by_cases h0 : t.val % 8 = 0
  · rw [outsAt1_A V c t h0]
    unfold out1_A_1
    iintro ⟨HΦ, Ho, ⟨%d0, H0⟩, ⟨%d1, H1⟩⟩
    iapply ((kernelRun1_A c (grid1.coords t) _ _ _ _ ((hcond1_0 t).mpr h0) (iblk1 V c 0 t)).2 Set.univ _)
    isplitl [H0]; · iexact H0
    isplitl [H1]; · iexists _; iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_A_1 c _ _ _ _ _ _ _)
  · rw [outsAt1_B V c t h0]
    simp only [before1_1_B V c t h0]
    unfold out1_B_1
    iintro ⟨HΦ, Ho, ⟨%d0, H0⟩, ⟨%d1, H1⟩⟩
    iapply ((kernelRun1_B c (grid1.coords t) _ _ _ _ (fun h => h0 ((hcond1_0 t).mp h)) (iblk1 V c 0 t) _).2 Set.univ _)
    isplitl [H0]; · iexact H0
    isplitl [H1]; · iexact H1
    iintro ⟨H0, ⟨%e1, H1⟩⟩
    isplitl [HΦ]; · iexact HΦ
    isplitl [Ho]; · iexact Ho
    isplitl [H0]; · iexact H0
    unfold owns; iexists _; isplitr
    swap; · iexact H1
    ipureintro; exact View.read_writes_of_cover _ _ _ _ _ (cover1_B_1 c _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Reg2Runs.lean ====
/-
  The third region: the product of the binarized adjacency with the linear layer's output, one block of 512 rows
  per value of the first grid coordinate, accumulated in a scratch buffer over the four column tiles the second
  coordinate walks through, and divided by the row's count at the last tile. What the region's cases share: the
  windows' blocks, the two conditions ("first tile", "last tile") in closed form, where the output window is idle,
  and the body run in each of the three cases, with what its stores leave in the output block's buffer and in the
  scratch found as the run's witnesses.
-/
import proofs.«180413_j79706003079298_1_alg».proof.Proof.Gen.KernelIdeal.Launch
import proofs.«180413_j79706003079298_1_alg».proof.Proof.Gen.KernelIdeal.Skeleton
import proofs.«180413_j79706003079298_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The body's condition "this is the first column tile", from the grid coordinates. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- The body's condition "this is the last column tile". -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- Away from the last tile the output window is idle and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- At the last tile it is live. -/
theorem liveAt2_3 : ∀ t : Fin cfg2.N, cond2_1 (grid2.coords t) → cfg2.idle 3 (grid2.coords t) = false := by decide +kernel

abbrev VO2_3 : View sig .tc .vmem S512x512 .f32 := (Memref.whole cc2_stg3_0 : Memref sig .tc .vmem S512x512 .f32).view
abbrev ms2_0 (t : Fin cfg2.N) : Memref sig .tc .vmem S512x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .f32 := win2_3.stage (cfg2.slots t 3)
abbrev hs2_3 (t : Fin cfg2.N) : (ms2_3 t).IsWhole := hstage2_3 ((cfg2.slots t 3).cast nbuf2_3)
/-- The scratch accumulator: a whole scoped buffer of the kernel's own, passed beside the windows. -/
abbrev scM2 : Memref sig .tc .vmem S512x512 .f32 := Memref.whole cc2_scratch0
abbrev VS2 : View sig .tc .vmem S512x512 .f32 := scM2.view

/-- The class invariant with the scratch accumulator as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ d, owns (c : Thread nD τ) scM2 fullShare d)) ∗ (∃ r, prngReg c r)) := by
  unfold Pipeline.ΦA; rw [scopedRest2_eq]; simp only [scM2, owns_whole]; try rfl

set_option maxHeartbeats 4000000 in
/-- The first column tile: the scratch is zeroed, then the tile's product is added to it; the output block is not
    touched. -/
noncomputable def kernelRun2_A (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x2048 .f32) (x1 : Vec F S2048x512 .bf16) (x2 : Vec F S512x1 .f32) :
    { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__numer_kernel i arg2 harg2 arg3 harg3 arg4 harg4 arg5 harg5 arg6 harg6) K } := by
  refine ⟨?_, fun xi3 E K => ?run⟩
  case run =>
    simp only [cc2__numer_kernel_eq_skeleton]; unfold cc2__numer_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- A middle column tile: the tile's product is added to what the scratch holds; the output block is not touched. -/
noncomputable def kernelRun2_B (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x2048 .f32) (x1 : Vec F S2048x512 .bf16) (x2 : Vec F S512x1 .f32) (xs0 : Vec F S512x512 .f32) :
    { LS0 : List (View.Piece (Elt F) S512x512 .f32) //
      ∀ (xi3 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__numer_kernel i arg2 harg2 arg3 harg3 arg4 harg4 arg5 harg5 arg6 harg6) K } := by
  refine ⟨?_, fun xi3 E K => ?run⟩
  case run =>
    simp only [cc2__numer_kernel_eq_skeleton]; unfold cc2__numer_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- The last column tile: the tile's product is added to the scratch, and the output block is stored: the scratch
    divided, row by row, by the block of counts. -/
noncomputable def kernelRun2_C (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x2048 .f32) (x1 : Vec F S2048x512 .bf16) (x2 : Vec F S512x1 .f32) (xs0 : Vec F S512x512 .f32) :
    Σ' (L3 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__numer_kernel i arg2 harg2 arg3 harg3 arg4 harg4 arg5 harg5 arg6 harg6) K } := by
  refine ⟨?_, ?_, fun E K => ?run⟩
  case run =>
    simp only [cc2__numer_kernel_eq_skeleton]; unfold cc2__numer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.Reg2.lean ====
/-
  The third region, continued: what the scratch accumulator and the output block's buffer hold after each grid
  point, the invariant that carries the accumulator from one point to the next, the region's proof data, and the
  body obligation at every point.
-/
import proofs.«180413_j79706003079298_1_alg».proof.Proof.Reg2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover2_A (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x2048 .f32) (x1 : Vec F S2048x512 .bf16) (x2 : Vec F S512x1 .f32) (y : S512x512.Idx) :
    ∃ pc ∈ (kernelRun2_A c i arg2 harg2 arg3 harg3 arg4 harg4 arg5 harg5 arg6 harg6 hc0 hc1 x0 x1 x2).1, y ∈ pc.1.set :=
  View.cover_of_tiledL (kernelRun2_A c i arg2 harg2 arg3 harg3 arg4 harg4 arg5 harg5 arg6 harg6 hc0 hc1 x0 x1 x2).1 S512x512.size (by sl_kernel_rfl) y

/-- What the first column tile leaves in the scratch accumulator. -/
def sout2_A (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : cond2_0 i) (hc1 : ¬cond2_1 i)
    (x0 : Vec F S512x2048 .f32) (x1 : Vec F S2048x512 .bf16) (x2 : Vec F S512x1 .f32) : Vec F S512x512 .f32 :=
  VS2.read (Elt F) (VS2.writes (Elt F) VS2.junk (kernelRun2_A c i arg2 harg2 arg3 harg3 arg4 harg4 arg5 harg5 arg6 harg6 hc0 hc1 x0 x1 x2).1)

theorem scover2_B (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x2048 .f32) (x1 : Vec F S2048x512 .bf16) (x2 : Vec F S512x1 .f32) (xs0 : Vec F S512x512 .f32) (y : S512x512.Idx) :
    ∃ pc ∈ (kernelRun2_B c i arg2 harg2 arg3 harg3 arg4 harg4 arg5 harg5 arg6 harg6 hc0 hc1 x0 x1 x2 xs0).1, y ∈ pc.1.set :=
  View.cover_of_tiledL (kernelRun2_B c i arg2 harg2 arg3 harg3 arg4 harg4 arg5 harg5 arg6 harg6 hc0 hc1 x0 x1 x2 xs0).1 S512x512.size (by sl_kernel_rfl) y

/-- What a middle column tile leaves in the scratch accumulator, over what it found there. -/
def sout2_B (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : ¬cond2_1 i)
    (x0 : Vec F S512x2048 .f32) (x1 : Vec F S2048x512 .bf16) (x2 : Vec F S512x1 .f32) (xs0 : Vec F S512x512 .f32) : Vec F S512x512 .f32 :=
  VS2.read (Elt F) (VS2.writes (Elt F) VS2.junk (kernelRun2_B c i arg2 harg2 arg3 harg3 arg4 harg4 arg5 harg5 arg6 harg6 hc0 hc1 x0 x1 x2 xs0).1)

theorem cover2_C (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x2048 .f32) (x1 : Vec F S2048x512 .bf16) (x2 : Vec F S512x1 .f32) (xs0 : Vec F S512x512 .f32) (y : S512x512.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S512x512.size (by sl_kernel_rfl) y

/-- What the last column tile leaves in the output block's buffer. -/
def out2_C (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x2048 .f32) (x1 : Vec F S2048x512 .bf16) (x2 : Vec F S512x1 .f32) (xs0 : Vec F S512x512 .f32) : Vec F S512x512 .f32 :=
  VO2_3.read (Elt F) (VO2_3.writes (Elt F) VO2_3.junk (kernelRun2_C c i arg2 harg2 arg3 harg3 arg4 harg4 arg5 harg5 arg6 harg6 hc0 hc1 x0 x1 x2 xs0).1)

theorem scover2_C (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x2048 .f32) (x1 : Vec F S2048x512 .bf16) (x2 : Vec F S512x1 .f32) (xs0 : Vec F S512x512 .f32) (y : S512x512.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S512x512.size (by sl_kernel_rfl) y

/-- What the last column tile leaves in the scratch accumulator. -/
def sout2_C (c : Dev nD) (i : grid2.Coords) (arg2 : Memref sig .tc .vmem S512x2048 .f32) (harg2 : arg2.IsWhole) (arg3 : Memref sig .tc .vmem S2048x512 .bf16) (harg3 : arg3.IsWhole) (arg4 : Memref sig .tc .vmem S512x1 .f32) (harg4 : arg4.IsWhole) (arg5 : Memref sig .tc .vmem S512x512 .f32) (harg5 : arg5.IsWhole) (arg6 : Memref sig .tc .vmem S512x512 .f32) (harg6 : arg6.IsWhole) (hc0 : ¬cond2_0 i) (hc1 : cond2_1 i)
    (x0 : Vec F S512x2048 .f32) (x1 : Vec F S2048x512 .bf16) (x2 : Vec F S512x1 .f32) (xs0 : Vec F S512x512 .f32) : Vec F S512x512 .f32 :=
  VS2.read (Elt F) (VS2.writes (Elt F) VS2.junk (kernelRun2_C c i arg2 harg2 arg3 harg3 arg4 harg4 arg5 harg5 arg6 harg6 hc0 hc1 x0 x1 x2 xs0).2.1)

/-- A placeholder for the output block's buffer at the points where the body does not store into it (the window is
    idle there and the block is not written back: nothing consults it). -/
def idleOut : Vec F S512x512 .f32 := VO2_3.read (Elt F) VO2_3.junk

/-- What the output block's buffer (first component) and the scratch accumulator (second) hold after the body at
    position `n`: the case the position selects, run at the point's blocks, over what the point before left in the
    accumulator. -/
def outsAt2 (c : Dev nD) : (n : ℕ) → n < cfg2.N → Vec F S512x512 .f32 × Vec F S512x512 .f32
  | 0, hn => (idleOut, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (idleOut, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (idleOut, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (idleOut, sout2_A c (grid2.coords t) (ms2_0 t) (hs2_0 t) (ms2_1 t) (hs2_1 t) (ms2_2 t) (hs2_2 t) (ms2_3 t) (hs2_3 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (idleOut, sout2_B c (grid2.coords t) (ms2_0 t) (hs2_0 t) (ms2_1 t) (hs2_1 t) (ms2_2 t) (hs2_2 t) (ms2_3 t) (hs2_3 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) scM2 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The other kernels' staging buffers: scoped buffers this region never touches, each held at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class invariant, the scratch accumulator set apart from the other kernels' buffers. -/
theorem PhiA2_split (c : Dev nD) :
    (Pipeline.ΦA spec2 c : sProp 𝕄) ⊣⊢ iprop((others c ∗ (∃ d, owns (c : Thread nD τ) scM2 fullShare d)) ∗ (∃ r, prngReg c r)) := by
  rw [PhiA2_eq]; unfold others
  constructor
  · iintro ⟨⟨H1, H2, H3, H4, H5, H6, H7, H8, H9, H10, HS⟩, Hg⟩
    isplitr [Hg]
    · isplitr [HS]
      · isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        iexact H10
      iexact HS
    iexact Hg
  · iintro ⟨⟨⟨H1, H2, H3, H4, H5, H6, H7, H8, H9, H10⟩, HS⟩, Hg⟩
    isplitr [Hg]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact HS
    iexact Hg

/-- The region's invariant before position `n`: before the first point the class's; afterwards the other kernels'
    buffers at anything, the scratch accumulator at what the point before left in it, and the generator register at
    some state. -/
def PhiS (c : Dev nD) : (n : ℕ) → n ≤ cfg2.N → sProp 𝕄
  | 0, _ => Pipeline.ΦA spec2 c
  | n + 1, hn => iprop((others c ∗ owns (c : Thread nD τ) scM2 fullShare ((outsAt2 V c n hn).2)) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop((others c ∗ owns (c : Thread nD τ) scM2 fullShare ((outsAt2 V c n hn).2)) ∗ (∃ r, prngReg c r)) := rfl

theorem PhiS_pos (c : Dev nD) (n : ℕ) (h : n ≤ cfg2.N) (hz : n ≠ 0) :
    PhiS V c n h = iprop((others c ∗ owns (c : Thread nD τ) scM2 fullShare ((outsAt2 V c (n - 1) (by omega)).2)) ∗ (∃ r, prngReg c r)) := by
  cases n with
  | zero => exact absurd rfl hz
  | succ n => rfl

/-- The region's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]

set_option maxHeartbeats 6400000 in
/-- The body at any point. The position says which case the point is in; the invariant hands the body the scratch
    accumulator at what the point before left (at anything at a block's first tile) and takes it back at this point's
    contents; the other kernels' buffers, the generator register and the core's dues pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS V c (t.val + 1) t.isLt from rfl, PhiS_succ]
  rw [leaves2_0, leaves2_1, leaves2_2]
  have hN : t.val < 64 := lt_of_lt_of_eq t.isLt (show cfg2.N = 64 from N_2)
  by_cases h0 : t.val % 4 = 0
  · have h1 : ¬t.val % 4 = 3 := by omega
    rw [Dat.leavesExact_idle (dat2 V c) 3 t (idleAt2_3 t (fun h => h1 ((hcond2_1 t).mp h))) (noFlush2_3 t (fun h => h1 ((hcond2_1 t).mp h)))]
    rw [outsAt2_A V c t h0 h1]
    unfold sout2_A; (try dsimp only)
    by_cases hz : t.val = 0
    · rw [PhiS_castSucc V c t, PhiS_zero V c _ _ hz]
      refine (sep_mono (PhiA2_split c).1 .rfl).trans ?_
      iintro ⟨⟨⟨Hoth, HS0⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitr [Hg]
        · isplitl [Hoth]; · iexact Hoth
          unfold owns; iexists _; isplitr
          swap; · iexact HS0
          ipureintro; exact View.read_writes_of_cover _ _ _ _ _ (scover2_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hg Hoth]
      · isplitr [Hg]
        · isplitl [Hoth]; · iexact Hoth
          unfold owns; iexists _; isplitr
          swap; · iexact HS0
          ipureintro; exact View.read_writes_of_cover _ _ _ _ _ (scover2_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := by omega
    by_cases h1 : t.val % 4 = 3
    · rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C sout2_C; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hoth]
      · isplitr [Hg]
        · isplitl [Hoth]; · iexact Hoth
          unfold owns; iexists _; isplitr
          swap; · iexact HS0
          ipureintro; exact View.read_writes_of_cover _ _ _ _ _ (scover2_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C c _ _ _ _ _ _ _ _ _ _ _ _ _ _ _ _ _)
    · rw [Dat.leavesExact_idle (dat2 V c) 3 t (idleAt2_3 t (fun h => h1 ((hcond2_1 t).mp h))) (noFlush2_3 t (fun h => h1 ((hcond2_1 t).mp h)))]
      rw [outsAt2_B V c t h0 h1]
      unfold sout2_B; (try dsimp only)
      rw [PhiS_castSucc V c t, PhiS_pos V c _ _ hz]
      iintro ⟨⟨⟨Hoth, HS0⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitr [Hg]
        · isplitl [Hoth]; · iexact Hoth
          unfold owns; iexists _; isplitr
          swap; · iexact HS0
          ipureintro; exact View.read_writes_of_cover _ _ _ _ _ (scover2_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the region is handed (the class invariant) is its invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After the last point the invariant gives the class invariant back: what the accumulator holds is forgotten. -/
theorem hout2 (c : Dev nD) : (dat2 V c).Φ (Fin.last cfg2.N) ⊢ Pipeline.ΦA spec2 c := by
  have ht : (Fin.last cfg2.N).val ≠ 0 := by rw [Fin.val_last]; have : cfg2.N = 64 := N_2; omega
  rw [show (dat2 V c).Φ (Fin.last cfg2.N) = PhiS V c (Fin.last cfg2.N).val (Nat.le_of_lt_succ (Fin.last cfg2.N).isLt) from rfl, PhiS_pos V c _ _ ht]
  refine .trans ?_ (PhiA2_split c).2
  iintro ⟨⟨Hoth, HS0⟩, Hg⟩
  isplitr [Hg]
  · isplitl [Hoth]; · iexact Hoth
    iexists _; iexact HS0
  iexact Hg

end Cert.KernelIdeal.Fr

end
-- ==== Proof.Run.lean ====
/-
  The whole program's run: the buffers' contents at each boundary between the host operations and the three
  regions, folded from the launch memory; the three regions as segments over the thread state "every unscoped
  buffer at the boundary's contents, the generator register at some state, nothing owed"; and the run itself, ending
  with every unscoped buffer at the last boundary's contents — in particular the argument arrays as launched and the
  result array at what the third region's write-backs leave.
-/
import proofs.«180413_j79706003079298_1_alg».proof.Proof.Reg0
import proofs.«180413_j79706003079298_1_alg».proof.Proof.Reg1
import proofs.«180413_j79706003079298_1_alg».proof.Proof.Reg2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the reshape of the bias (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the reshape of the counts into a column (the third region's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b

/-- At region 2's exit: its arrays at what the pipeline leaves (the inputs as entered, the output's write-backs
    folded), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb

abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-! ### The adjacency reaches the third region as launched, and every argument ends as launched -/

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := (W3_arr m ρ c 0).trans (((dat1 (V2 m ρ) c).arrAt_in 0 rfl _).trans (A_eq1 (V2 m ρ) c 0))
    _ = m ((c : Thread nD τ).loc main_arg1) := W2_main_arg1 m ρ c

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := (W5_arr m ρ c 0).trans (((dat2 (V4 m ρ) c).arrAt_in 0 rfl _).trans (A_eq2 (V4 m ρ) c 0))
    _ = m ((c : Thread nD τ).loc main_arg1) := W4_main_arg1 m ρ c
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-! ## The proof data family and the thread state -/

abbrev adm : (p : Fin 3) → (pcfgs (F := F) p).Adm := fun p => (cfgs p).toPCfg_adm
/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the region's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at the exit contents; the generator register goes into the region's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. Its arrays are
    split out of the unscoped buffers and put back at the exit contents; the generator register goes into the region's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .region (reg1 m ρ),
    .host (hseg hostOps2 hostOps2_sub ops2_fresh (W3 m ρ)),
    .region (reg2 m ρ) ]
theorem main_run (c : Dev nD) : main (F := F) c = Pipeline.Seg.run (segs m ρ) := (main_chain c).trans (by chain_rfl)

set_option backward.isDefEq.respectTransparency.types false in
/-- THE RUN, at any float instance: from any memory with zero counters every weakly fair execution of the program
    terminates, nothing faulting, and every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Fr

end
-- ==== Proof.Chain.lean ====
/-
  What each region finds in the arrays it reads, traced back through the boundaries: the linear layer reads the
  features and the weights as launched and the bias reshaped to a row; the degree region reads the adjacency as
  launched; the last region reads the adjacency as launched, the linear layer's result as the first region left it, and
  the degrees as the second region left them, reshaped to a column; the result array ends at what the last region's
  write-backs leave.
-/
import proofs.«180413_j79706003079298_1_alg».proof.Proof.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V1_main_arg0 (c : Dev nD) : V1 m ρ c main_arg0 = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg0) = W0 m ρ c (Proc.devRef .tc main_arg0)).trans rfl
theorem V1_main_arg2 (c : Dev nD) : V1 m ρ c main_arg2 = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))) : W1 m ρ c (Proc.devRef .tc main_arg2) = W0 m ρ c (Proc.devRef .tc main_arg2)).trans rfl
/-- The bias as the first region finds it: the launch bias laid out as a row. -/
theorem V1_main_v0 (c : Dev nD) :
    (V1 m ρ c main_v0 : S1x512.Idx → Elt F .f32) = shapeCast S1x512 (m ((c : Thread nD τ).loc main_arg3)) shapeCasts_S512_S1x512 := by
  show StableHlo.after hostOps0 (W0 m ρ c) (Proc.devRef .tc main_v0) = _
  after_results
  rfl
theorem V2_main_arg1 (c : Dev nD) : V2 m ρ c main_arg1 = m ((c : Thread nD τ).loc main_arg1) := W2_main_arg1 m ρ c
theorem V4_main_arg1 (c : Dev nD) : V4 m ρ c main_arg1 = m ((c : Thread nD τ).loc main_arg1) := W4_main_arg1 m ρ c
/-- The linear layer's result as the last region finds it: what the first region's write-backs left. -/
theorem V4_main_v1 (c : Dev nD) : V4 m ρ c main_v1 = (dat0 (V1 m ρ) c).arrAt 3 cfg0.N :=
  calc W4 m ρ c (Proc.devRef .tc main_v1)
    _ = W3 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W3_of_ne m ρ c main_v1 (by decide)
    _ = (dat0 (V1 m ρ) c).arrAt 3 cfg0.N := W2_arr m ρ c 3
/-- The degrees as the last region finds them: what the second region's write-backs left, laid out as a column. -/
theorem V4_main_v3 (c : Dev nD) :
    (V4 m ρ c main_v3 : S8192x1.Idx → Elt F .f32) = shapeCast S8192x1 ((dat1 (V2 m ρ) c).arrAt 1 cfg1.N : S1x8192.Idx → Elt F .f32) shapeCasts_S1x8192_S8192x1 := by
  rw [← W3_arr m ρ c 1]
  show StableHlo.after hostOps2 (W3 m ρ c) (Proc.devRef .tc main_v3) = _
  after_results
  rfl
/-- The result array at the end: what the last region's write-backs left. -/
theorem V5_main_v4 (c : Dev nD) : V5 m ρ c main_v4 = (dat2 (V4 m ρ) c).arrAt 3 cfg2.N := W5_arr m ρ c 3

end Cert.KernelIdeal.Fr

end
-- ==== Proof.Spec.lean ====
/-
  The graph-convolution layer as one function of its four argument arrays, entry by entry, over the extended reals:
  the adjacency matrix is binarized (an entry counts as one when it is not zero), the features go through a linear
  layer, each row of the binarized adjacency is multiplied into the layer's output, and row `m` of the product is
  divided by the number of nonzero entries of COLUMN `m` of the adjacency.
-/
import Idealize.ShloMosaic.PureOps.Ideal
import Idealize.ShloMosaic.Lib.ValueIdx

noncomputable section

open scoped BigOperators

namespace Cert.GraphLayer

open Idealize.ShloMosaic Idealize.ShloMosaic.ValueIdx

/-- The binarized adjacency entry: zero for a zero entry, one for any other. -/
def ind (a : EReal) : EReal := if a = 0 then 0 else 1

/-- The linear layer at row `n`, column `o`: the sum over `c` of `X(n,c) · W(c,o)`, plus the bias `b(o)`. -/
def hidden (X : (⟨2, ![8192, 512]⟩ : Shape).Idx → EReal) (Wt : (⟨2, ![512, 512]⟩ : Shape).Idx → EReal)
    (b : (⟨1, ![512]⟩ : Shape).Idx → EReal) (n : Fin 8192) (o : Fin 512) : EReal :=
  (∑ c : Fin 512, X (ix2 n c) * Wt (ix2 c o)) + b (ix1 o)

/-- The number of nonzero entries of column `j` of the adjacency. -/
def deg (A : (⟨2, ![8192, 8192]⟩ : Shape).Idx → EReal) (j : Fin 8192) : EReal :=
  ∑ i : Fin 8192, ind (A (ix2 i j))

/-- The layer's output at row `m`, column `o`: the sum over `k` of the binarized `A(m,k)` times the linear layer's
    `(k,o)` entry, divided by column `m`'s count. -/
def out (X : (⟨2, ![8192, 512]⟩ : Shape).Idx → EReal) (A : (⟨2, ![8192, 8192]⟩ : Shape).Idx → EReal)
    (Wt : (⟨2, ![512, 512]⟩ : Shape).Idx → EReal) (b : (⟨1, ![512]⟩ : Shape).Idx → EReal) (m : Fin 8192) (o : Fin 512) : EReal :=
  Ideal.div (∑ k : Fin 8192, ind (A (ix2 m k)) * hidden X Wt b k o) (deg A m)

end Cert.GraphLayer

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.Payloads.lean ====
/-
  The values the three kernel bodies store, read at one index, over the extended reals.

  Each stored value is a short chain of vector operations on the values loaded before it. Read at an index at the ideal
  instance, where a float is an extended real and a change of format is the identity, the chains are:
  the linear layer's tile is the sum over the shared axis of the products, plus the bias row; the column-count tile is
  the previous count plus the number of nonzero entries of the column within the tile; the accumulator tile is the
  previous accumulator plus the sum over the tile's shared axis of the binarized adjacency entry times the hidden
  entry; the output tile is the accumulator divided by the column of counts; and the two initial tiles are zero.
-/
import proofs.«180413_j79706003079298_1_alg».proof.Proof.Gen.KernelIdeal.Skeleton
import proofs.«180413_j79706003079298_1_alg».proof.Proof.Spec
import proofs.«180413_j79706003079298_1_alg».proof.Proof.LibPlainMatmul
import proofs.«180413_j79706003079298_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## Scalar readings -/

/-- The zero word of the 32-bit format is the extended real zero. -/
theorem zero_word : (Scalar.ofBits (F := Ideal) .f32 0x00000000#32 : EReal) = 0 := Ideal.ofBits_zero_f32

/-- Comparing an entry with zero for "not equal", widening the resulting bit to a 32-bit integer and converting that
    integer to a float gives the binarized entry: zero for a zero entry and one for any other. -/
theorem ind_word (x : EReal) :
    FloatOps.sitofp (F := Ideal) .f32
        ((FloatOps.cmpf (F := Ideal) (φ := .f32) .one x (Scalar.ofBits .f32 0x00000000#32)).setWidth 32)
      = Cert.GraphLayer.ind x := by
  show (((((Ideal.cmp .one x (Scalar.ofBits (F := Ideal) .f32 0x00000000#32)).setWidth 32).toInt : ℤ) : ℝ) : EReal)
      = Cert.GraphLayer.ind x
  rw [zero_word]
  unfold Ideal.cmp Cert.GraphLayer.ind
  by_cases hx : x = 0
  · simp [hx]
  · simp [hx]

/-! ## The output tile: the accumulator divided by the column of counts -/

theorem div_pay (acc : Vec Ideal S512x512 .f32) (d : Vec Ideal S512x1 .f32) (p q : Fin 512) :
    k2_pay3 acc d (ix2 p q) = Ideal.div (acc (ix2 p q)) (d (ix2 p (0 : Fin 1))) := by
  unfold k2_pay3
  refine (divf_apply _ _ _).trans ?_
  refine congrArg (Ideal.div (acc (ix2 p q))) ?_
  refine (Cert.ColumnForms.broadcastTo_a1_ab_apply _ broadcasts_S512x1_S512x512 p q).trans ?_
  exact congrFun (shapeCast_self d shapeCasts_S512x1_S512x1) _

/-! ## The two initial tiles -/

theorem zero_row (q : Fin 1024) : k1_pay1 (F := Ideal) (ix2 (0 : Fin 1) q) = 0 := by
  unfold k1_pay1
  exact zero_word

theorem zero_acc (p q : Fin 512) : k2_pay1 (F := Ideal) (ix2 p q) = 0 := by
  unfold k2_pay1
  refine (congrFun (shapeCast_self _ shapeCasts_S512x512_S512x512) _).trans ?_
  exact zero_word

/-! ## The linear layer's tile: the product with the weights, plus the bias row -/

theorem hidden_pay (x : Vec Ideal S1024x512 .f32) (w : Vec Ideal S512x512 .f32) (b : Vec Ideal S1x512 .f32)
    (p : Fin 1024) (q : Fin 512) :
    k0_pay1 x w b (ix2 p q) = (∑ c : Fin 512, x (ix2 p c) * w (ix2 c q)) + b (ix2 (0 : Fin 1) q) := by
  unfold k0_pay1
  refine (truncf_apply (φ := .f32) (ψ := .bf16) _ bitsLt_bf16_f32 (ix2 p q)).trans ?_
  refine (addf_apply _ _ _).trans ?_
  refine congrArg₂ (· + ·) ?_ ?_
  · refine (Cert.PointConv.plainMatmul_zero_apply dot_S1024x512_S512x512_S1024x512_1_0_0_1_n_n_wf none _ _ p q).trans ?_
    exact Finset.sum_congr rfl fun c _ => rfl
  · refine (broadcastTo_1b_ab_apply _ broadcasts_S1x512_S1024x512 p q).trans ?_
    exact congrFun (shapeCast_self b shapeCasts_S1x512_S1x512) _

/-! ## The accumulator tile: the previous accumulator plus the binarized adjacency tile times the hidden tile -/

theorem acc_pay (a : Vec Ideal S512x2048 .f32) (h : Vec Ideal S2048x512 .bf16) (prev : Vec Ideal S512x512 .f32)
    (p q : Fin 512) :
    k2_pay2 a h prev (ix2 p q)
      = prev (ix2 p q) + ∑ c : Fin 2048, Cert.GraphLayer.ind (a (ix2 p c)) * h (ix2 c q) := by
  unfold k2_pay2
  refine (congrFun (shapeCast_self _ shapeCasts_S512x512_S512x512) _).trans ?_
  refine (addf_apply _ _ _).trans ?_
  refine congrArg (prev (ix2 p q) + ·) ?_
  refine (Cert.PointConv.plainMatmul_zero_apply dot_S512x2048_S2048x512_S512x512_1_0_0_1_n_n_wf none _ _ p q).trans ?_
  refine Finset.sum_congr rfl fun c _ => ?_
  refine congrArg₂ (· * ·) ?_ ?_
  · exact ind_word (a (ix2 p c))
  · exact congrFun (shapeCast_self h shapeCasts_S2048x512_S2048x512) _

/-! ## The column-count tile: the previous count plus the column's nonzero entries within the tile -/

/-- A sum along the row axis of a square tile, started from the zero word, read at column q: the sum over the rows. -/
theorem colsum_apply (v : FVec Ideal S1024x1024 .f32) (hr : S1024x1024.Reduces [0] S1024) (hφ : FKind.Formats .f32)
    (hacc : (0x00000000#32 : BitVec 32) = 0x00000000#32) (q : Fin 1024) :
    multiReduction .add [0] S1024 v 0x00000000#32 hr hφ hacc (ix1 q) = ∑ p : Fin 1024, v (ix2 p q) := by
  refine (Ideal.multiReduction_add_single v 0x00000000#32 hr hφ hacc (ix1 q)).trans ?_
  refine Finset.sum_congr rfl fun k _ => ?_
  exact congrArg v (funext fun a => Fin.ext (by match a with | ⟨0, _⟩ => rfl | ⟨1, _⟩ => rfl))

theorem deg_pay (a : Vec Ideal S1024x1024 .f32) (prev : Vec Ideal S1x1024 .f32) (q : Fin 1024) :
    k1_pay2 a prev (ix2 (0 : Fin 1) q)
      = prev (ix2 (0 : Fin 1) q) + ∑ p : Fin 1024, Cert.GraphLayer.ind (a (ix2 p q)) := by
  unfold k1_pay2
  refine (addf_apply _ _ _).trans ?_
  refine congrArg₂ (· + ·) ?_ ?_
  · exact congrFun (shapeCast_self prev shapeCasts_S1x1024_S1x1024) _
  · refine (shapeCast_a_1a_apply _ shapeCasts_S1024_S1x1024 (0 : Fin 1) q).trans ?_
    refine (colsum_apply _ reduces_S1024x1024_S1024 (.inl rfl) rfl q).trans ?_
    exact Finset.sum_congr rfl fun p _ => ind_word (a (ix2 p q))

end Cert.KernelIdeal.Pay

end
-- ==== Proof.Val0.lean ====
/-
  The first region's output array as one function of the arrays the region finds.

  Every grid point writes back its block of 1024 rows of the linear layer: the block's rows of the features times the
  whole weight matrix, plus the bias row. The eight blocks tile the output array, so the array ends holding the linear
  layer of the whole feature array, entry by entry.
-/
import proofs.«180413_j79706003079298_1_alg».proof.Proof.Reg0
import proofs.«180413_j79706003079298_1_alg».proof.Proof.Payloads
import Idealize.ShloMosaic.Lib.Pipeline.Value
import Idealize.ShloMosaic.Lib.ValueIdx
import Idealize.ShloMosaic.Lib.Tactic

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe Idealize.SL.Sem
open Idealize.ShloMosaic.Pipeline (Dat)

/-- The linear layer as a whole array: row n, column o is Σ_c X(n,c)·W(c,o) + B(0,o). -/
def H0 (X : S8192x512.Idx → EReal) (Wt : S512x512.Idx → EReal) (B : S1x512.Idx → EReal) : S8192x512.Idx → EReal :=
  fun i => (∑ c : Fin 512, X (ix2 (i 0) c) * Wt (ix2 c (i 1))) + B (ix2 (0 : Fin 1) (i 1))

variable (V : (c : Dev nD) → (b : Ref sig .tc) → Buf (Elt Ideal) ((c : Thread nD τ).loc b))

theorem zeroOff0 : (![0, 0] : Fin 2 → Nat) = fun _ => 0 := funext fun a => by fin_cases a <;> rfl

/-- The block indices over the grid: the feature and output windows move down one block of rows per point, the weight
    and bias windows stay on their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The feature window's block at point t is rows 1024·t … 1024·t + 1023 of the feature array. -/
theorem iblk0_0_apply (c : Dev nD) (t : Fin cfg0.N) (x : S1024x512.Idx) (k : S8192x512.Idx)
    (hk0 : (k 0).val = 1024 * t.val + (x 0).val) (hk1 : (k 1).val = (x 1).val) :
    (iblk0 V c 0 t : Vec Ideal S1024x512 .f32) x = (V c main_arg0 : S8192x512.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 1024 + 1 * (x 0).val = (k 0).val; rw [e0, hk0]; omega
  | ⟨1, _⟩ => show win0_0.index t 1 * 512 + 1 * (x 1).val = (k 1).val; rw [e1, hk1]; omega

/-- The weight window's block at any point is the weight array. -/
theorem iblk0_1_apply (c : Dev nD) (t : Fin cfg0.N) (x : S512x512.Idx) :
    (iblk0 V c 1 t : Vec Ideal S512x512 .f32) x = (V c main_arg2 : S512x512.Idx → EReal) x := by
  obtain ⟨-, -, e2, e3, -⟩ := idx_facts0 t
  unfold iblk0
  rw [View.read_apply]
  show V c main_arg2 _ = V c main_arg2 _
  congr 1
  funext a
  apply Fin.ext
  match a with
  | ⟨0, _⟩ => show win0_1.index t 0 * 512 + 1 * (x 0).val = (x 0).val; rw [e2]; omega
  | ⟨1, _⟩ => show win0_1.index t 1 * 512 + 1 * (x 1).val = (x 1).val; rw [e3]; omega

/-- The bias window's block at any point is the bias row. -/
theorem iblk0_2_apply (c : Dev nD) (t : Fin cfg0.N) (x : S1x512.Idx) :
    (iblk0 V c 2 t : Vec Ideal S1x512 .f32) x = (V c main_v0 : S1x512.Idx → EReal) x := by
  obtain ⟨-, -, -, -, e4, e5, -⟩ := idx_facts0 t
  unfold iblk0
  rw [View.read_apply]
  show V c main_v0 _ = V c main_v0 _
  congr 1
  funext a
  apply Fin.ext
  match a with
  | ⟨0, _⟩ => show win0_2.index t 0 * 1 + 1 * (x 0).val = (x 0).val; rw [e4]; omega
  | ⟨1, _⟩ => show win0_2.index t 1 * 512 + 1 * (x 1).val = (x 1).val; rw [e5]; omega

/-- The payload of the three blocks at point t, read at an entry of the block, is the linear layer at the entry's place
    in the whole array. -/
theorem block0 (c : Dev nD) (t : Fin cfg0.N) (j : S1024x512.Idx) (i : S8192x512.Idx)
    (hi0 : (i 0).val = 1024 * t.val + (j 0).val) (hi1 : (i 1).val = (j 1).val) :
    k0_pay1 (iblk0 V c 0 t) (iblk0 V c 1 t) (iblk0 V c 2 t) j
      = H0 (V c main_arg0) (V c main_arg2) (V c main_v0) i := by
  obtain ⟨p, q, rfl⟩ : ∃ (p : Fin 1024) (q : Fin 512), j = ix2 p q := ⟨j 0, j 1, eq_ix2 j⟩
  obtain ⟨r, q', rfl⟩ : ∃ (r : Fin 8192) (q' : Fin 512), i = ix2 r q' := ⟨i 0, i 1, eq_ix2 i⟩
  have hr : r.val = 1024 * t.val + p.val := hi0
  obtain rfl : q' = q := Fin.ext hi1
  refine (Pay.hidden_pay _ _ _ p q').trans ?_
  have key : ∀ (X : S8192x512.Idx → EReal) (Wt : S512x512.Idx → EReal) (B : S1x512.Idx → EReal),
      H0 X Wt B (ix2 r q') = (∑ k : Fin 512, X (ix2 r k) * Wt (ix2 k q')) + B (ix2 (0 : Fin 1) q') := fun _ _ _ => rfl
  refine Eq.trans ?_ (key _ _ _).symm
  refine congrArg₂ (· + ·) (Finset.sum_congr rfl fun k _ => congrArg₂ (· * ·) ?_ ?_) ?_
  · exact iblk0_0_apply V c t (ix2 p k) (ix2 r k) hr rfl
  · exact iblk0_1_apply V c t (ix2 k q')
  · exact iblk0_2_apply V c t (ix2 (0 : Fin 1) q')

/-- What point t writes back is block t of the linear layer of the arrays as the region finds them. -/
theorem flushed0_eq (c : Dev nD) (t : Fin cfg0.N) :
    (dat0 (F := Ideal) V c).flushed 3 t
      = ((cfg0.win 3).blk t).view.read (Elt Ideal) (H0 (V c main_arg0) (V c main_arg2) (V c main_v0)) := by
  show (cfg0.win 3).cut (grid0.coords t) ((dat0 V c).after 3 t) = _
  rw [after0_3]
  unfold out0_3
  rw [View.canon_unit_zero zeroOff0]
  simp only [View.ld_unit_zero (S := S1024x512) zeroOff0, View.ld_unit_zero (S := S512x512) zeroOff0, View.ld_unit_zero (S := S1x512) zeroOff0]
  obtain ⟨-, -, -, -, -, -, e6, e7⟩ := idx_facts0 t
  funext j
  refine block0 V c t j _ ?_ ?_
  · show win0_3.index t 0 * 1024 + 1 * (j 0).val = 1024 * t.val + (j 0).val; rw [e6]; omega
  · show win0_3.index t 1 * 512 + 1 * (j 1).val = (j 1).val; rw [e7]; omega

/-- An index of the output array is in point t's block iff each coordinate is in the block's range on its axis. -/
theorem mem_blk0 (t : Fin cfg0.N) (i : S8192x512.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v1).slice (win0_3.rect t)).set ↔ _
  rw [View.set_slice_whole, Rect.mem_set_unit]
  exact Iff.rfl

/-- Every row of the output array is in the block of the point numbered by the row's block of 1024. -/
theorem cover0 (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 8 := N_0
  have ht : (i 0).val / 1024 < cfg0.N := by rw [hN]; omega
  obtain ⟨-, -, -, -, -, -, e6, e7⟩ := idx_facts0 ⟨(i 0).val / 1024, ht⟩
  refine ⟨⟨(i 0).val / 1024, ht⟩, flush0_3 _, ?_⟩
  rw [mem_blk0]
  intro a
  match a with
  | ⟨0, _⟩ =>
    show win0_3.index ⟨(i 0).val / 1024, ht⟩ 0 * 1024 ≤ (i 0).val
      ∧ (i 0).val < win0_3.index ⟨(i 0).val / 1024, ht⟩ 0 * 1024 + 1024
    rw [e6]; show (i 0).val / 1024 * 1024 ≤ (i 0).val ∧ (i 0).val < (i 0).val / 1024 * 1024 + 1024; omega
  | ⟨1, _⟩ =>
    show win0_3.index ⟨(i 0).val / 1024, ht⟩ 1 * 512 ≤ (i 1).val
      ∧ (i 1).val < win0_3.index ⟨(i 0).val / 1024, ht⟩ 1 * 512 + 512
    rw [e7]; omega

/-- The output array after the region: the linear layer of the feature array, the weights and the bias row. -/
theorem final0 (c : Dev nD) :
    (dat0 (F := Ideal) V c).arrAt 3 cfg0.N = H0 (V c main_arg0) (V c main_arg2) (V c main_v0) :=
  (dat0 V c).arrAt_eq_of_cover 3 (H0 (V c main_arg0) (V c main_arg2) (V c main_v0))
    (fun t _ => flushed0_eq V c t) (cover0)

end Cert.KernelIdeal.Val

end
-- ==== Proof.BlockSums.lean ====
/-
  A sum over a finite range taken tile by tile: the sum over `nb` consecutive tiles of `bs` entries each is the sum
  over all `nb * bs` entries; a running total that starts from the first tile's sum and adds one tile's sum at a time
  holds, after tile `k`, the sum of tiles `0 … k`. Stated over any additive commutative monoid.
-/
import Mathlib.Algebra.BigOperators.Fin
import Mathlib.Data.Fintype.BigOperators
import Mathlib.Logic.Equiv.Fin.Basic
import Idealize.ShloMosaic.PureOps.Ideal

open scoped BigOperators

namespace Cert.GraphLayer

variable {M : Type*} [AddCommMonoid M]

/-- Entry `c` of tile `k` lies inside the whole range. -/
theorem tile_lt {nb bs : ℕ} (k : Fin nb) (c : Fin bs) : k.val * bs + c.val < nb * bs :=
  calc k.val * bs + c.val < k.val * bs + bs := Nat.add_lt_add_left c.isLt _
    _ = (k.val + 1) * bs := (Nat.succ_mul _ _).symm
    _ ≤ nb * bs := Nat.mul_le_mul_right _ k.isLt

/-- The sum of the tiles' sums is the sum over the whole range. -/
theorem sum_tiles (nb bs : ℕ) (f : Fin (nb * bs) → M) :
    ∑ k : Fin nb, ∑ c : Fin bs, f ⟨k.val * bs + c.val, tile_lt k c⟩ = ∑ j : Fin (nb * bs), f j := by
  rw [← Equiv.sum_comp finProdFinEquiv f, Fintype.sum_prod_type]
  refine Finset.sum_congr rfl fun k _ => Finset.sum_congr rfl fun c _ => congrArg f (Fin.ext ?_)
  show k.val * bs + c.val = c.val + bs * k.val
  rw [Nat.mul_comm, Nat.add_comm]

/-- The same with the tile size written first in the product, over a range whose length is given as `nb * bs` by
    an equation: the form the literal tilings below instantiate. -/
theorem sum_tiles_of_eq (nb bs n : ℕ) (hn : nb * bs = n) (f : Fin n → M)
    (hlt : ∀ (k : Fin nb) (c : Fin bs), bs * k.val + c.val < n) :
    ∑ k : Fin nb, ∑ c : Fin bs, f ⟨bs * k.val + c.val, hlt k c⟩ = ∑ j : Fin n, f j := by
  subst hn
  rw [← sum_tiles nb bs f]
  refine Finset.sum_congr rfl fun k _ => Finset.sum_congr rfl fun c _ => congrArg f (Fin.ext ?_)
  show bs * k.val + c.val = k.val * bs + c.val
  rw [Nat.mul_comm]

/-- 8192 entries as 8 tiles of 1024. -/
theorem rows_total (f : Fin 8192 → M) :
    ∑ r : Fin 8, ∑ p : Fin 1024, f ⟨1024 * r.val + p.val, by omega⟩ = ∑ i : Fin 8192, f i :=
  sum_tiles_of_eq 8 1024 8192 rfl f (fun r p => by omega)

/-- 8192 entries as 4 tiles of 2048. -/
theorem cols_total (f : Fin 8192 → M) :
    ∑ k : Fin 4, ∑ c : Fin 2048, f ⟨2048 * k.val + c.val, by omega⟩ = ∑ i : Fin 8192, f i :=
  sum_tiles_of_eq 4 2048 8192 rfl f (fun k c => by omega)

/-- A running total that starts at the first term and adds one term per step is, after step `k`, the sum of the
    terms `0 … k`. -/
theorem running_total (S b : ℕ → M) (n : ℕ) (h0 : S 0 = b 0)
    (hs : ∀ k, k + 1 < n → S (k + 1) = S k + b (k + 1)) :
    ∀ k, k < n → S k = ∑ j ∈ Finset.range (k + 1), b j := by
  intro k
  induction k with
  | zero => intro _; rw [h0, Finset.sum_range_one]
  | succ k ih =>
    intro hk
    rw [hs k hk, ih (Nat.lt_of_succ_lt hk), Finset.sum_range_succ b (k + 1)]

/-- A sum over the naturals below `n` is the sum over `Fin n`. -/
theorem range_eq_fin (n : ℕ) (b : ℕ → M) : ∑ j ∈ Finset.range n, b j = ∑ k : Fin n, b k.val :=
  Finset.sum_range b

end Cert.GraphLayer
-- ==== Proof.Val1.lean ====
/-
  The second region's value: the array of column counts. The output block of 1024 columns is zeroed at the first of
  the eight row tiles and each row tile adds, to every column, the number of its nonzero entries within the tile; the
  block is written back after the eighth, when each column holds its count over all 8192 rows.
-/
import proofs.«180413_j79706003079298_1_alg».proof.Proof.Reg1
import proofs.«180413_j79706003079298_1_alg».proof.Proof.Payloads
import proofs.«180413_j79706003079298_1_alg».proof.Proof.BlockSums
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe Idealize.SL.Sem Idealize.ShloMosaic.Tactic
open Idealize.ShloMosaic.Pipeline (Dat)

theorem hz : (![0, 0] : Fin 2 → Nat) = fun _ => 0 := funext fun a => by fin_cases a <;> rfl

/-! ## What each case of the body leaves in the output block's buffer -/

section Pieces

variable {F : FTy → Type} [FloatOps F]

/-- A later row tile leaves the tile's column counts added to what the buffer held. -/
theorem out_B (c : Dev nD) (i : grid1.Coords) (a2 : Memref sig .tc .vmem S1024x1024 .f32) (h2 : a2.IsWhole)
    (a3 : Memref sig .tc .vmem S1x1024 .f32) (h3 : a3.IsWhole) (hc : ¬cond1_0 i)
    (x0 : Vec F S1024x1024 .f32) (xo1 : Vec F S1x1024 .f32) :
    out1_B_1 c i a2 h2 a3 h3 hc x0 xo1 = k1_pay2 x0 xo1 := by
  unfold out1_B_1
  rw [View.read_writes_eq_canon _ _ _ (cover1_B_1 c i a2 h2 a3 h3 hc x0 xo1)]
  unfold kernelRun1_B
  dsimp only
  rw [View.canon_unit_zero hz]
  simp only [View.readAt_eq_ld, h2.read_unread, h3.read_unread, View.ld_unit_zero (S := S1024x1024) hz,
    View.ld_unit_zero (S := S1x1024) hz]

/-- The first row tile leaves the tile's column counts added to the zero row. -/
theorem out_A (c : Dev nD) (i : grid1.Coords) (a2 : Memref sig .tc .vmem S1024x1024 .f32) (h2 : a2.IsWhole)
    (a3 : Memref sig .tc .vmem S1x1024 .f32) (h3 : a3.IsWhole) (hc : cond1_0 i)
    (x0 : Vec F S1024x1024 .f32) :
    out1_A_1 c i a2 h2 a3 h3 hc x0 = k1_pay2 x0 (k1_pay1 (F := F)) := by
  unfold out1_A_1
  rw [View.read_writes_eq_canon _ _ _ (cover1_A_1 c i a2 h2 a3 h3 hc x0)]
  unfold kernelRun1_A
  dsimp only
  sl_unfold_words
  rw [View.canon_cons_unit_zero (S := S1x1024) hz, View.readCov_unit_zero (S := S1x1024) _ hz]
  simp only [View.readAt_eq_ld, h2.read_unread, View.ld_unit_zero (S := S1024x1024) hz]

end Pieces

/-! ## The blocks a point reads and writes -/

/-- The windows' block indices at point `t`: the input's row tile is `t % 8` and its column tile `t / 8`; the output's
    block is column tile `t / 8` of its one row. -/
theorem idx_facts : ∀ t : Fin cfg1.N, win1_0.index t (0 : Fin 2) = t.val % 8 ∧ win1_0.index t (1 : Fin 2) = t.val / 8
    ∧ win1_1.index t (0 : Fin 2) = 0 ∧ win1_1.index t (1 : Fin 2) = t.val / 8 :=
  (by decide +kernel : ∀ t : Fin grid1.N, _)

/-- The adjacency read at natural coordinates: zero outside the array. -/
def ext (A : S8192x8192.Idx → EReal) (i j : ℕ) : EReal :=
  if h : i < 8192 ∧ j < 8192 then A (ix2 (⟨i, h.1⟩ : Fin 8192) (⟨j, h.2⟩ : Fin 8192)) else 0

/-- The number of nonzero entries of column `1024 cj + q` within row tile `s`. -/
def tileSum (A : S8192x8192.Idx → EReal) (cj s : ℕ) (q : Fin 1024) : EReal :=
  ∑ p : Fin 1024, Cert.GraphLayer.ind (ext A (1024 * s + p.val) (1024 * cj + q.val))

variable (V : (c : Dev nD) → (b : Ref sig .tc) → Buf (Elt Ideal) ((c : Thread nD τ).loc b))

/-- The input block at point `t`, entry `(p, q)`: the adjacency at row `1024 (t % 8) + p`, column `1024 (t / 8) + q`. -/
theorem iblk_at (c : Dev nD) (t : Fin cfg1.N) (p q : Fin 1024) :
    (iblk1 (F := Ideal) V c 0 t : Vec Ideal S1024x1024 .f32) (ix2 p q)
      = ext (V c main_arg1) (1024 * (t.val % 8) + p.val) (1024 * (t.val / 8) + q.val) := by
  have hN : t.val < 64 := lt_of_lt_of_eq t.isLt (show cfg1.N = 64 from N_1)
  obtain ⟨e0, e1, -, -⟩ := idx_facts t
  unfold ext
  rw [dif_pos ⟨by omega, by omega⟩]
  unfold iblk1
  rw [View.read_apply]
  show V c main_arg1 (((cfg1.win 0).blk t).view.emb (ix2 p q)) = V c main_arg1 _
  refine congrArg (V c main_arg1) (funext fun a => Fin.ext ?_)
  match a with
  | ⟨0, _⟩ => show win1_0.index t (0 : Fin 2) * 1024 + 1 * p.val = 1024 * (t.val % 8) + p.val; rw [e0]; omega
  | ⟨1, _⟩ => show win1_0.index t (1 : Fin 2) * 1024 + 1 * q.val = 1024 * (t.val / 8) + q.val; rw [e1]; omega

/-! ## The running column counts -/

/-- At a first row tile the buffer is left holding that tile's counts. -/
theorem step_A (c : Dev nD) (t : Fin cfg1.N) (h0 : t.val % 8 = 0) (q : Fin 1024) :
    outsAt1 (F := Ideal) V c t.val t.isLt (ix2 (0 : Fin 1) q) = tileSum (V c main_arg1) (t.val / 8) (t.val % 8) q := by
  rw [outsAt1_A V c t h0, out_A]
  refine (Pay.deg_pay _ _ q).trans ?_
  rw [Pay.zero_row, zero_add]
  exact Finset.sum_congr rfl fun p _ => congrArg Cert.GraphLayer.ind (iblk_at V c t p q)

/-- At a later row tile that tile's counts are added to what the point before left. -/
theorem step_B (c : Dev nD) (t : Fin cfg1.N) (h0 : ¬t.val % 8 = 0) (q : Fin 1024) :
    outsAt1 (F := Ideal) V c t.val t.isLt (ix2 (0 : Fin 1) q)
      = outsAt1 (F := Ideal) V c (t.val - 1) (Nat.lt_of_le_of_lt (Nat.sub_le _ _) t.isLt) (ix2 (0 : Fin 1) q)
        + tileSum (V c main_arg1) (t.val / 8) (t.val % 8) q := by
  rw [outsAt1_B V c t h0, out_B]
  refine (Pay.deg_pay _ _ q).trans ?_
  exact congrArg (_ + ·) (Finset.sum_congr rfl fun p _ => congrArg Cert.GraphLayer.ind (iblk_at V c t p q))

/-- After point `n` the buffer holds, for each column of column tile `n / 8`, its counts over row tiles `0 … n % 8`. -/
theorem outsAt_eq (c : Dev nD) : ∀ (n : ℕ) (h : n < cfg1.N) (q : Fin 1024),
    outsAt1 (F := Ideal) V c n h (ix2 (0 : Fin 1) q)
      = ∑ s ∈ Finset.range (n % 8 + 1), tileSum (V c main_arg1) (n / 8) s q
  | 0, h, q => by
    refine (step_A V c ⟨0, h⟩ rfl q).trans ?_
    show tileSum (V c main_arg1) (0 / 8) (0 % 8) q = _
    rw [Finset.sum_range_one]
  | n + 1, h, q => by
    by_cases h0 : (n + 1) % 8 = 0
    · refine (step_A V c ⟨n + 1, h⟩ h0 q).trans ?_
      show tileSum (V c main_arg1) ((n + 1) / 8) ((n + 1) % 8) q = _
      rw [h0, Finset.sum_range_one]
    · refine (step_B V c ⟨n + 1, h⟩ h0 q).trans ?_
      show outsAt1 (F := Ideal) V c n _ (ix2 (0 : Fin 1) q) + tileSum (V c main_arg1) ((n + 1) / 8) ((n + 1) % 8) q = _
      have e1 : (n + 1) / 8 = n / 8 := by omega
      have e2 : (n + 1) % 8 = n % 8 + 1 := by omega
      rw [outsAt_eq c n (Nat.lt_of_succ_lt h) q, e1, e2, Finset.sum_range_succ _ (n % 8 + 1)]

/-- At the eighth row tile the buffer holds each column's count over all 8192 rows. -/
theorem last_at (c : Dev nD) (t : Fin cfg1.N) (h7 : t.val % 8 = 7) (q : Fin 1024)
    (hj : 1024 * (t.val / 8) + q.val < 8192) :
    outsAt1 (F := Ideal) V c t.val t.isLt (ix2 (0 : Fin 1) q)
      = Cert.GraphLayer.deg (V c main_arg1) ⟨1024 * (t.val / 8) + q.val, hj⟩ := by
  have e : t.val % 8 + 1 = 8 := by omega
  rw [outsAt_eq V c t.val t.isLt q, e, Cert.GraphLayer.range_eq_fin]
  unfold Cert.GraphLayer.deg
  refine Eq.trans ?_ (Cert.GraphLayer.rows_total (M := EReal)
    (fun i : Fin 8192 => Cert.GraphLayer.ind ((V c main_arg1 : S8192x8192.Idx → EReal) (ix2 i ⟨1024 * (t.val / 8) + q.val, hj⟩))))
  refine Finset.sum_congr rfl fun r _ => ?_
  unfold tileSum
  refine Finset.sum_congr rfl fun p _ => ?_
  unfold ext
  rw [dif_pos ⟨by omega, hj⟩]

/-! ## The array after the region -/

/-- The column counts laid out as a row: entry (0, j) is the number of nonzero entries of column j. -/
def D1 (A : S8192x8192.Idx → EReal) : S1x8192.Idx → EReal := fun i => Cert.GraphLayer.deg A (i 1)

/-- What a point that writes the block back writes: its block of the row of column counts. -/
theorem flushed_eq (c : Dev nD) (t : Fin cfg1.N) (hf : (cfg1.win 1).flush t = true) :
    (dat1 (F := Ideal) V c).flushed 1 t = ((cfg1.win 1).blk t).view.read (Elt Ideal) (D1 (V c main_arg1)) := by
  have hN : t.val < 64 := lt_of_lt_of_eq t.isLt (show cfg1.N = 64 from N_1)
  have h7 : t.val % 8 = 7 := (flush1_1 t).mp hf
  obtain ⟨-, -, e2, e3⟩ := idx_facts t
  show (cfg1.win 1).cut (grid1.coords t) ((dat1 (F := Ideal) V c).after 1 t) = _
  rw [after1_1]
  funext y
  rw [View.read_apply]
  have hy1 : (y 1).val < 1024 := (y 1).isLt
  have hy : (y : S1x1024.Idx) = ix2 (0 : Fin 1) (⟨(y 1).val, hy1⟩ : Fin 1024) := funext fun a => Fin.ext (by
    match a with
    | ⟨0, _⟩ => have h : (y 0).val < 1 := (y 0).isLt; show (y 0).val = 0; omega
    | ⟨1, _⟩ => rfl)
  show outsAt1 (F := Ideal) V c t.val t.isLt y = D1 (V c main_arg1) (((cfg1.win 1).blk t).view.emb y)
  rw [hy]
  refine (last_at V c t h7 ⟨(y 1).val, hy1⟩ (by show 1024 * (t.val / 8) + (y 1).val < 8192; omega)).trans ?_
  unfold D1
  refine congrArg (Cert.GraphLayer.deg (V c main_arg1)) (Fin.ext ?_)
  show 1024 * (t.val / 8) + (y 1).val = win1_1.index t (1 : Fin 2) * 1024 + 1 * (y 1).val
  rw [e3]; omega

/-- An index of the row is in point `t`'s block iff each coordinate is in the block's range on its axis. -/
theorem mem_blk (t : Fin cfg1.N) (i : S1x8192.Idx) :
    i ∈ ((cfg1.win 1).blk t).view.set ↔ ∀ a : Fin 2, win1_1.index t a * S1x1024.size a ≤ (i a).val
      ∧ (i a).val < win1_1.index t a * S1x1024.size a + S1x1024.size a := by
  show i ∈ ((View.whole main_v2).slice (win1_1.rect t)).set ↔ _
  rw [View.set_slice_whole, Rect.mem_set_unit]
  exact Iff.rfl

/-- After the region the row holds every column's count: the eighth row tile of column tile `j / 1024` writes
    back the block that holds column `j`. -/
theorem final1 (c : Dev nD) : (dat1 (F := Ideal) V c).arrAt 1 cfg1.N = D1 (V c main_arg1) :=
  (dat1 (F := Ideal) V c).arrAt_eq_of_cover 1 (D1 (V c main_arg1)) (flushed_eq V c) fun i => by
    have hi0 : (i 0).val < 1 := (i 0).isLt
    have hi1 : (i 1).val < 8192 := (i 1).isLt
    have hN : cfg1.N = 64 := N_1
    obtain ⟨t, ht⟩ : ∃ t : Fin cfg1.N, t.val = 8 * ((i 1).val / 1024) + 7 := ⟨⟨_, by rw [hN]; omega⟩, rfl⟩
    obtain ⟨-, -, e2, e3⟩ := idx_facts t
    refine ⟨t, (flush1_1 t).mpr (by omega), ?_⟩
    rw [mem_blk]
    intro a
    match a with
    | ⟨0, _⟩ =>
      show win1_1.index t (0 : Fin 2) * 1 ≤ (i 0).val ∧ (i 0).val < win1_1.index t (0 : Fin 2) * 1 + 1
      rw [e2]; omega
    | ⟨1, _⟩ =>
      show win1_1.index t (1 : Fin 2) * 1024 ≤ (i 1).val ∧ (i 1).val < win1_1.index t (1 : Fin 2) * 1024 + 1024
      rw [e3]; omega

end Cert.KernelIdeal.Val

end
-- ==== Proof.Val2Pieces.lean ====
/-
  The third region's pieces: what each of the three cases of the body leaves in the scratch accumulator and in the
  output block's buffer, as the stored payloads of the blocks it loaded; which block of its array each window is on at
  a grid point; and each input block read at an index of its array.
-/
import proofs.«180413_j79706003079298_1_alg».proof.Proof.Reg2
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe Idealize.SL.Sem Idealize.ShloMosaic.Tactic
open Idealize.ShloMosaic.Pipeline (Dat)

theorem zeroOff2 : (![0, 0] : Fin 2 → Nat) = fun _ => 0 := funext fun a => by fin_cases a <;> rfl

section Pieces

variable {F : FTy → Type} [FloatOps F]

/-- A middle column tile leaves the tile's product added to what the accumulator held. -/
theorem sout_B (c : Dev nD) (i : grid2.Coords) (a2 : Memref sig .tc .vmem S512x2048 .f32) (h2 : a2.IsWhole)
    (a3 : Memref sig .tc .vmem S2048x512 .bf16) (h3 : a3.IsWhole) (a4 : Memref sig .tc .vmem S512x1 .f32) (h4 : a4.IsWhole)
    (a5 : Memref sig .tc .vmem S512x512 .f32) (h5 : a5.IsWhole) (a6 : Memref sig .tc .vmem S512x512 .f32) (h6 : a6.IsWhole)
    (hc0 : ¬cond2_0 i) (hc1 : ¬cond2_1 i)
    (x0 : Vec F S512x2048 .f32) (x1 : Vec F S2048x512 .bf16) (x2 : Vec F S512x1 .f32) (xs0 : Vec F S512x512 .f32) :
    sout2_B c i a2 h2 a3 h3 a4 h4 a5 h5 a6 h6 hc0 hc1 x0 x1 x2 xs0 = k2_pay2 x0 x1 xs0 := by
  unfold sout2_B
  rw [View.read_writes_eq_canon _ _ _ (scover2_B c i a2 h2 a3 h3 a4 h4 a5 h5 a6 h6 hc0 hc1 x0 x1 x2 xs0)]
  unfold kernelRun2_B
  dsimp only
  rw [View.canon_unit_zero zeroOff2]
  simp only [View.readAt_eq_ld, h2.read_unread, h3.read_unread, h6.read_unread, View.ld_unit_zero (S := S512x2048) zeroOff2,
    View.ld_unit_zero (S := S2048x512) zeroOff2, View.ld_unit_zero (S := S512x512) zeroOff2]

/-- The first column tile leaves the tile's product added to the zero tile. -/
theorem sout_A (c : Dev nD) (i : grid2.Coords) (a2 : Memref sig .tc .vmem S512x2048 .f32) (h2 : a2.IsWhole)
    (a3 : Memref sig .tc .vmem S2048x512 .bf16) (h3 : a3.IsWhole) (a4 : Memref sig .tc .vmem S512x1 .f32) (h4 : a4.IsWhole)
    (a5 : Memref sig .tc .vmem S512x512 .f32) (h5 : a5.IsWhole) (a6 : Memref sig .tc .vmem S512x512 .f32) (h6 : a6.IsWhole)
    (hc0 : cond2_0 i) (hc1 : ¬cond2_1 i)
    (x0 : Vec F S512x2048 .f32) (x1 : Vec F S2048x512 .bf16) (x2 : Vec F S512x1 .f32) :
    sout2_A c i a2 h2 a3 h3 a4 h4 a5 h5 a6 h6 hc0 hc1 x0 x1 x2 = k2_pay2 x0 x1 (k2_pay1 (F := F)) := by
  unfold sout2_A
  rw [View.read_writes_eq_canon _ _ _ (scover2_A c i a2 h2 a3 h3 a4 h4 a5 h5 a6 h6 hc0 hc1 x0 x1 x2)]
  unfold kernelRun2_A
  dsimp only
  sl_unfold_words
  rw [View.canon_cons_unit_zero (S := S512x512) zeroOff2, View.readCov_unit_zero (S := S512x512) _ zeroOff2]
  simp only [View.readAt_eq_ld, h2.read_unread, h3.read_unread, View.ld_unit_zero (S := S512x2048) zeroOff2,
    View.ld_unit_zero (S := S2048x512) zeroOff2]

/-- The last column tile leaves in the accumulator the tile's product added to what it held. -/
theorem sout_C (c : Dev nD) (i : grid2.Coords) (a2 : Memref sig .tc .vmem S512x2048 .f32) (h2 : a2.IsWhole)
    (a3 : Memref sig .tc .vmem S2048x512 .bf16) (h3 : a3.IsWhole) (a4 : Memref sig .tc .vmem S512x1 .f32) (h4 : a4.IsWhole)
    (a5 : Memref sig .tc .vmem S512x512 .f32) (h5 : a5.IsWhole) (a6 : Memref sig .tc .vmem S512x512 .f32) (h6 : a6.IsWhole)
    (hc0 : ¬cond2_0 i) (hc1 : cond2_1 i)
    (x0 : Vec F S512x2048 .f32) (x1 : Vec F S2048x512 .bf16) (x2 : Vec F S512x1 .f32) (xs0 : Vec F S512x512 .f32) :
    sout2_C c i a2 h2 a3 h3 a4 h4 a5 h5 a6 h6 hc0 hc1 x0 x1 x2 xs0 = k2_pay2 x0 x1 xs0 := by
  unfold sout2_C
  rw [View.read_writes_eq_canon _ _ _ (scover2_C c i a2 h2 a3 h3 a4 h4 a5 h5 a6 h6 hc0 hc1 x0 x1 x2 xs0)]
  unfold kernelRun2_C
  dsimp only
  sl_unfold_words
  rw [View.canon_unit_zero zeroOff2]
  simp only [View.readAt_eq_ld, h2.read_unread, h3.read_unread, h6.read_unread, View.ld_unit_zero (S := S512x2048) zeroOff2,
    View.ld_unit_zero (S := S2048x512) zeroOff2, View.ld_unit_zero (S := S512x512) zeroOff2]

/-- The last column tile leaves in the output block's buffer the new accumulator divided by the block of counts. -/
theorem out_C (c : Dev nD) (i : grid2.Coords) (a2 : Memref sig .tc .vmem S512x2048 .f32) (h2 : a2.IsWhole)
    (a3 : Memref sig .tc .vmem S2048x512 .bf16) (h3 : a3.IsWhole) (a4 : Memref sig .tc .vmem S512x1 .f32) (h4 : a4.IsWhole)
    (a5 : Memref sig .tc .vmem S512x512 .f32) (h5 : a5.IsWhole) (a6 : Memref sig .tc .vmem S512x512 .f32) (h6 : a6.IsWhole)
    (hc0 : ¬cond2_0 i) (hc1 : cond2_1 i)
    (x0 : Vec F S512x2048 .f32) (x1 : Vec F S2048x512 .bf16) (x2 : Vec F S512x1 .f32) (xs0 : Vec F S512x512 .f32) :
    out2_C c i a2 h2 a3 h3 a4 h4 a5 h5 a6 h6 hc0 hc1 x0 x1 x2 xs0 = k2_pay3 (k2_pay2 x0 x1 xs0) x2 := by
  unfold out2_C
  rw [View.read_writes_eq_canon _ _ _ (cover2_C c i a2 h2 a3 h3 a4 h4 a5 h5 a6 h6 hc0 hc1 x0 x1 x2 xs0)]
  unfold kernelRun2_C
  dsimp only
  sl_unfold_words
  rw [View.canon_unit_zero zeroOff2, View.readCov_unit_zero (S := S512x512) _ zeroOff2]
  simp only [View.readAt_eq_ld, h2.read_unread, h3.read_unread, h4.read_unread, h6.read_unread,
    View.ld_unit_zero (S := S512x2048) zeroOff2, View.ld_unit_zero (S := S2048x512) zeroOff2,
    View.ld_unit_zero (S := S512x512) zeroOff2, View.ld_unit_zero (S := S512x1) zeroOff2]

end Pieces

/-! ## The blocks a point reads and writes -/

/-- The windows' block indices at point `t`: the adjacency's row tile is `t / 4` and its column tile `t % 4`; the
    linear layer's output is on row tile `t % 4` of its one column tile; the counts and the output are on row tile
    `t / 4` of theirs. -/
theorem idx_facts2 : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0
    ∧ win2_3.index t (0 : Fin 2) = t.val / 4 ∧ win2_3.index t (1 : Fin 2) = 0 :=
  (by decide +kernel : ∀ t : Fin grid2.N, _)

/-- A point's position is below 64. -/
theorem pos_lt2 (t : Fin cfg2.N) : t.val < 64 := lt_of_lt_of_eq t.isLt (show cfg2.N = 64 from N_2)

variable (V : (c : Dev nD) → (b : Ref sig .tc) → Buf (Elt Ideal) ((c : Thread nD τ).loc b))

/-- The adjacency block at point `t`, entry `(p, k)`: the adjacency at row `512 (t / 4) + p`, column `2048 (t % 4) + k`. -/
theorem iblk2_0_at (c : Dev nD) (t : Fin cfg2.N) (p : Fin 512) (k : Fin 2048) :
    (iblk2 (F := Ideal) V c 0 t : Vec Ideal S512x2048 .f32) (ix2 p k)
      = V c main_arg1 (ix2 (⟨512 * (t.val / 4) + p.val, by have := pos_lt2 t; omega⟩ : Fin 8192)
          (⟨2048 * (t.val % 4) + k.val, by omega⟩ : Fin 8192)) := by
  obtain ⟨e0, e1, -⟩ := idx_facts2 t
  unfold iblk2
  rw [View.read_apply]
  show V c main_arg1 (((cfg2.win 0).blk t).view.emb (ix2 p k)) = V c main_arg1 _
  refine congrArg (V c main_arg1) (funext fun a => Fin.ext ?_)
  match a with
  | ⟨0, _⟩ => show win2_0.index t (0 : Fin 2) * 512 + 1 * p.val = 512 * (t.val / 4) + p.val; rw [e0]; omega
  | ⟨1, _⟩ => show win2_0.index t (1 : Fin 2) * 2048 + 1 * k.val = 2048 * (t.val % 4) + k.val; rw [e1]; omega

/-- The linear layer's block at point `t`, entry `(k, q)`: the linear layer's output at row `2048 (t % 4) + k`, column `q`. -/
theorem iblk2_1_at (c : Dev nD) (t : Fin cfg2.N) (k : Fin 2048) (q : Fin 512) :
    (iblk2 (F := Ideal) V c 1 t : Vec Ideal S2048x512 .bf16) (ix2 k q)
      = V c main_v1 (ix2 (⟨2048 * (t.val % 4) + k.val, by omega⟩ : Fin 8192) q) := by
  obtain ⟨-, -, e0, e1, -⟩ := idx_facts2 t
  unfold iblk2
  rw [View.read_apply]
  show V c main_v1 (((cfg2.win 1).blk t).view.emb (ix2 k q)) = V c main_v1 _
  refine congrArg (V c main_v1) (funext fun a => Fin.ext ?_)
  match a with
  | ⟨0, _⟩ => show win2_1.index t (0 : Fin 2) * 2048 + 1 * k.val = 2048 * (t.val % 4) + k.val; rw [e0]; omega
  | ⟨1, _⟩ => show win2_1.index t (1 : Fin 2) * 512 + 1 * q.val = q.val; rw [e1]; omega

/-- The block of counts at point `t`, entry `(p, 0)`: the column of counts at row `512 (t / 4) + p`. -/
theorem iblk2_2_at (c : Dev nD) (t : Fin cfg2.N) (p : Fin 512) :
    (iblk2 (F := Ideal) V c 2 t : Vec Ideal S512x1 .f32) (ix2 p (0 : Fin 1))
      = V c main_v3 (ix2 (⟨512 * (t.val / 4) + p.val, by have := pos_lt2 t; omega⟩ : Fin 8192) (0 : Fin 1)) := by
  obtain ⟨-, -, -, -, e0, e1, -⟩ := idx_facts2 t
  unfold iblk2
  rw [View.read_apply]
  show V c main_v3 (((cfg2.win 2).blk t).view.emb (ix2 p (0 : Fin 1))) = V c main_v3 _
  refine congrArg (V c main_v3) (funext fun a => Fin.ext ?_)
  match a with
  | ⟨0, _⟩ => show win2_2.index t (0 : Fin 2) * 512 + 1 * p.val = 512 * (t.val / 4) + p.val; rw [e0]; omega
  | ⟨1, _⟩ => show win2_2.index t (1 : Fin 2) * 1 + 1 * 0 = 0; rw [e1]

end Cert.KernelIdeal.Val

end
-- ==== Proof.Val2.lean ====
/-
  The third region's value: the layer's output array. For each block of 512 rows the scratch accumulator is zeroed at
  the first of the four column tiles and each column tile adds its part of the product of the binarized adjacency
  with the hidden array; at the fourth tile the accumulator, now the product's entries over all 8192 columns, is
  divided row by row by the block of counts and the quotient is written back as the block of the output.
-/
import proofs.«180413_j79706003079298_1_alg».proof.Proof.Val2Pieces
import proofs.«180413_j79706003079298_1_alg».proof.Proof.Payloads
import proofs.«180413_j79706003079298_1_alg».proof.Proof.BlockSums
import Idealize.ShloMosaic.Lib.Pipeline.Value
import Idealize.ShloMosaic.Lib.ValueIdx
import Idealize.ShloMosaic.Lib.Tactic

set_option maxRecDepth 16384

noncomputable section

open scoped BigOperators

namespace Cert.KernelIdeal.Val

open Cert.KernelIdeal Cert.KernelIdeal.Gen Cert.KernelIdeal.Fr Idealize.ShloMosaic Idealize.ShloMosaic.ValueIdx
open Idealize.ShloMosaic.TcCoe Idealize.SL.Sem Idealize.ShloMosaic.Tactic
open Idealize.ShloMosaic.Pipeline (Dat)

variable (V : (c : Dev nD) → (b : Ref sig .tc) → Buf (Elt Ideal) ((c : Thread nD τ).loc b))

/-! ## The tiles of the product -/

/-- The adjacency read at natural coordinates: zero outside the array. -/
def extA (A : S8192x8192.Idx → EReal) (i j : ℕ) : EReal :=
  if h : i < 8192 ∧ j < 8192 then A (ix2 (⟨i, h.1⟩ : Fin 8192) (⟨j, h.2⟩ : Fin 8192)) else 0

/-- The hidden array read at a natural row: zero outside the array. -/
def extH (Hh : S8192x512.Idx → EReal) (k : ℕ) (q : Fin 512) : EReal :=
  if h : k < 8192 then Hh (ix2 (⟨k, h⟩ : Fin 8192) q) else 0

/-- Column tile s's part of entry (512 rb + p, q) of the product: the sum over the tile's 2048 columns of the binarized
    adjacency entry times the hidden entry. -/
def tileProd (A : S8192x8192.Idx → EReal) (Hh : S8192x512.Idx → EReal) (rb s : ℕ) (p q : Fin 512) : EReal :=
  ∑ k : Fin 2048, Cert.GraphLayer.ind (extA A (512 * rb + p.val) (2048 * s + k.val)) * extH Hh (2048 * s + k.val) q

/-- The two input blocks at point t give the point's tile of the product. -/
theorem tile2_at (c : Dev nD) (t : Fin cfg2.N) (p q : Fin 512) :
    ∑ k : Fin 2048, Cert.GraphLayer.ind ((iblk2 (F := Ideal) V c 0 t : Vec Ideal S512x2048 .f32) (ix2 p k))
        * (iblk2 (F := Ideal) V c 1 t : Vec Ideal S2048x512 .bf16) (ix2 k q)
      = tileProd (V c main_arg1) (V c main_v1) (t.val / 4) (t.val % 4) p q := by
  have hN := pos_lt2 t
  unfold tileProd
  refine Finset.sum_congr rfl fun k _ => ?_
  rw [iblk2_0_at, iblk2_1_at]
  unfold extA extH
  rw [dif_pos ⟨by omega, by omega⟩, dif_pos (by omega)]

/-! ## The running accumulator -/

/-- At a first column tile the accumulator is left holding that tile's part. -/
theorem step2_A (c : Dev nD) (t : Fin cfg2.N) (h0 : t.val % 4 = 0) (p q : Fin 512) :
    (outsAt2 (F := Ideal) V c t.val t.isLt).2 (ix2 p q)
      = tileProd (V c main_arg1) (V c main_v1) (t.val / 4) (t.val % 4) p q := by
  rw [outsAt2_A V c t h0 (by omega)]
  rw [sout_A]
  refine (Pay.acc_pay _ _ _ p q).trans ?_
  rw [Pay.zero_acc, zero_add]
  exact tile2_at V c t p q

/-- At a later column tile that tile's part is added to what the point before left. -/
theorem step2_BC (c : Dev nD) (t : Fin cfg2.N) (h0 : ¬t.val % 4 = 0) (p q : Fin 512) :
    (outsAt2 (F := Ideal) V c t.val t.isLt).2 (ix2 p q)
      = (outsAt2 (F := Ideal) V c (t.val - 1) (Nat.lt_of_le_of_lt (Nat.sub_le _ _) t.isLt)).2 (ix2 p q)
        + tileProd (V c main_arg1) (V c main_v1) (t.val / 4) (t.val % 4) p q := by
  by_cases h3 : t.val % 4 = 3
  · rw [outsAt2_C V c t h0 h3]
    rw [sout_C]
    refine (Pay.acc_pay _ _ _ p q).trans ?_
    exact congrArg (_ + ·) (tile2_at V c t p q)
  · rw [outsAt2_B V c t h0 h3]
    rw [sout_B]
    refine (Pay.acc_pay _ _ _ p q).trans ?_
    exact congrArg (_ + ·) (tile2_at V c t p q)

/-- After point n the accumulator holds, for each entry of row block n / 4, its parts over column tiles 0 … n % 4. -/
theorem acc2_eq (c : Dev nD) : ∀ (n : ℕ) (h : n < cfg2.N) (p q : Fin 512),
    (outsAt2 (F := Ideal) V c n h).2 (ix2 p q)
      = ∑ s ∈ Finset.range (n % 4 + 1), tileProd (V c main_arg1) (V c main_v1) (n / 4) s p q
  | 0, h, p, q => by
    refine (step2_A V c ⟨0, h⟩ rfl p q).trans ?_
    show tileProd (V c main_arg1) (V c main_v1) (0 / 4) (0 % 4) p q = _
    rw [Finset.sum_range_one]
  | n + 1, h, p, q => by
    by_cases h0 : (n + 1) % 4 = 0
    · refine (step2_A V c ⟨n + 1, h⟩ h0 p q).trans ?_
      show tileProd (V c main_arg1) (V c main_v1) ((n + 1) / 4) ((n + 1) % 4) p q = _
      rw [h0, Finset.sum_range_one]
    · refine (step2_BC V c ⟨n + 1, h⟩ h0 p q).trans ?_
      show (outsAt2 (F := Ideal) V c n _).2 (ix2 p q) + tileProd (V c main_arg1) (V c main_v1) ((n + 1) / 4) ((n + 1) % 4) p q = _
      have e1 : (n + 1) / 4 = n / 4 := by omega
      have e2 : (n + 1) % 4 = n % 4 + 1 := by omega
      rw [acc2_eq c n (Nat.lt_of_succ_lt h) p q, e1, e2, Finset.sum_range_succ _ (n % 4 + 1)]

/-! ## The output array -/

/-- The layer's output as a whole array: row m, column o is the product's entry divided by row m's count. -/
def O2 (A : S8192x8192.Idx → EReal) (Hh : S8192x512.Idx → EReal) (Dg : S8192x1.Idx → EReal) : S8192x512.Idx → EReal :=
  fun i => Ideal.div (∑ k : Fin 8192, Cert.GraphLayer.ind (A (ix2 (i 0) k)) * Hh (ix2 k (i 1))) (Dg (ix2 (i 0) (0 : Fin 1)))

/-- At a last column tile the output block's buffer holds the accumulator divided by the block of counts. -/
theorem out2_at (c : Dev nD) (t : Fin cfg2.N) (h3 : t.val % 4 = 3) (p q : Fin 512) :
    (outsAt2 (F := Ideal) V c t.val t.isLt).1 (ix2 p q)
      = Ideal.div ((outsAt2 (F := Ideal) V c t.val t.isLt).2 (ix2 p q))
          ((iblk2 (F := Ideal) V c 2 t : Vec Ideal S512x1 .f32) (ix2 p (0 : Fin 1))) := by
  rw [outsAt2_C V c t (by omega) h3]
  rw [out_C, sout_C]
  exact Pay.div_pay _ _ p q

/-- At a last column tile the output block's buffer holds the layer's output at the block's place in the array. -/
theorem last2_at (c : Dev nD) (t : Fin cfg2.N) (h3 : t.val % 4 = 3) (p q : Fin 512)
    (hr : 512 * (t.val / 4) + p.val < 8192) :
    (outsAt2 (F := Ideal) V c t.val t.isLt).1 (ix2 p q)
      = O2 (V c main_arg1) (V c main_v1) (V c main_v3) (ix2 (⟨512 * (t.val / 4) + p.val, hr⟩ : Fin 8192) q) := by
  have key : ∀ (A : S8192x8192.Idx → EReal) (Hh : S8192x512.Idx → EReal) (Dg : S8192x1.Idx → EReal) (r : Fin 8192),
      O2 A Hh Dg (ix2 r q)
        = Ideal.div (∑ k : Fin 8192, Cert.GraphLayer.ind (A (ix2 r k)) * Hh (ix2 k q)) (Dg (ix2 r (0 : Fin 1))) :=
    fun _ _ _ _ => rfl
  have e : t.val % 4 + 1 = 4 := by omega
  rw [out2_at V c t h3 p q, acc2_eq V c t.val t.isLt p q, e, Cert.GraphLayer.range_eq_fin, iblk2_2_at, key]
  refine congrArg (Ideal.div · _) ?_
  refine Eq.trans ?_ (Cert.GraphLayer.cols_total (M := EReal)
    (fun k : Fin 8192 => Cert.GraphLayer.ind ((V c main_arg1 : S8192x8192.Idx → EReal) (ix2 ⟨512 * (t.val / 4) + p.val, hr⟩ k))
      * (V c main_v1 : S8192x512.Idx → EReal) (ix2 k q)))
  refine Finset.sum_congr rfl fun s _ => ?_
  unfold tileProd
  refine Finset.sum_congr rfl fun k _ => ?_
  unfold extA extH
  rw [dif_pos ⟨hr, by omega⟩, dif_pos (by omega)]

/-- What a point that writes the block back writes: its block of the layer's output. -/
theorem flushed2_eq (c : Dev nD) (t : Fin cfg2.N) (hf : (cfg2.win 3).flush t = true) :
    (dat2 (F := Ideal) V c).flushed 3 t
      = ((cfg2.win 3).blk t).view.read (Elt Ideal) (O2 (V c main_arg1) (V c main_v1) (V c main_v3)) := by
  have hN := pos_lt2 t
  have h3 : t.val % 4 = 3 := (flush2_3 t).mp hf
  obtain ⟨-, -, -, -, -, -, e6, e7⟩ := idx_facts2 t
  show (cfg2.win 3).cut (grid2.coords t) ((dat2 (F := Ideal) V c).after 3 t) = _
  rw [after2_3]
  funext y
  rw [View.read_apply]
  have hy0 : (y 0).val < 512 := (y 0).isLt
  have hy1 : (y 1).val < 512 := (y 1).isLt
  have hy : (y : S512x512.Idx) = ix2 (⟨(y 0).val, hy0⟩ : Fin 512) (⟨(y 1).val, hy1⟩ : Fin 512) :=
    funext fun a => Fin.ext (by match a with | ⟨0, _⟩ => rfl | ⟨1, _⟩ => rfl)
  show (outsAt2 (F := Ideal) V c t.val t.isLt).1 y
    = O2 (V c main_arg1) (V c main_v1) (V c main_v3) (((cfg2.win 3).blk t).view.emb y)
  rw [hy]
  refine (last2_at V c t h3 ⟨(y 0).val, hy0⟩ ⟨(y 1).val, hy1⟩
    (by show 512 * (t.val / 4) + (y 0).val < 8192; omega)).trans ?_
  refine congrArg (O2 (V c main_arg1) (V c main_v1) (V c main_v3)) (funext fun a => Fin.ext ?_)
  match a with
  | ⟨0, _⟩ => show 512 * (t.val / 4) + (y 0).val = win2_3.index t (0 : Fin 2) * 512 + 1 * (y 0).val; rw [e6]; omega
  | ⟨1, _⟩ => show (y 1).val = win2_3.index t (1 : Fin 2) * 512 + 1 * (y 1).val; rw [e7]; omega

/-- An index of the output array is in point t's block iff each coordinate is in the block's range on its axis. -/
theorem mem_blk2 (t : Fin cfg2.N) (i : S8192x512.Idx) :
    i ∈ ((cfg2.win 3).blk t).view.set ↔ ∀ a : Fin 2, win2_3.index t a * S512x512.size a ≤ (i a).val
      ∧ (i a).val < win2_3.index t a * S512x512.size a + S512x512.size a := by
  show i ∈ ((View.whole main_v4).slice (win2_3.rect t)).set ↔ _
  rw [View.set_slice_whole, Rect.mem_set_unit]
  exact Iff.rfl

/-- After the region the output array holds the layer's output: the last column tile of row block r / 512 writes back
    the block that holds row r. -/
theorem final2 (c : Dev nD) :
    (dat2 (F := Ideal) V c).arrAt 3 cfg2.N = O2 (V c main_arg1) (V c main_v1) (V c main_v3) :=
  (dat2 (F := Ideal) V c).arrAt_eq_of_cover 3 (O2 (V c main_arg1) (V c main_v1) (V c main_v3)) (flushed2_eq V c) fun i => by
    have hi0 : (i 0).val < 8192 := (i 0).isLt
    have hi1 : (i 1).val < 512 := (i 1).isLt
    have hN : cfg2.N = 64 := N_2
    obtain ⟨t, ht⟩ : ∃ t : Fin cfg2.N, t.val = 4 * ((i 0).val / 512) + 3 := ⟨⟨_, by rw [hN]; omega⟩, rfl⟩
    obtain ⟨-, -, -, -, -, -, e6, e7⟩ := idx_facts2 t
    refine ⟨t, (flush2_3 t).mpr (by omega), ?_⟩
    rw [mem_blk2]
    intro a
    match a with
    | ⟨0, _⟩ =>
      show win2_3.index t (0 : Fin 2) * 512 ≤ (i 0).val ∧ (i 0).val < win2_3.index t (0 : Fin 2) * 512 + 512
      rw [e6]; omega
    | ⟨1, _⟩ =>
      show win2_3.index t (1 : Fin 2) * 512 ≤ (i 1).val ∧ (i 1).val < win2_3.index t (1 : Fin 2) * 512 + 512
      rw [e7]; omega

end Cert.KernelIdeal.Val

end
-- ==== Proof.RefSide.lean ====
import proofs.«180413_j79706003079298_1_alg».proof.Proof.Gen.ReferenceIdeal.Read
import proofs.«180413_j79706003079298_1_alg».proof.Proof.Spec
import Idealize.ShloMosaic.Lib.ValueIdx
import Idealize.ShloMosaic.Lib.ValueLayout
import Idealize.ShloMosaic.Lib.Pipeline.Value
import Idealize.ShloMosaic.PureOps.Ideal.Laws

/-
  The reference program's result, read at an index over the extended reals, is the graph-convolution layer of
  the specification: the binarized adjacency times the linear layer's output, each row divided by the matching
  column count of the binarized adjacency.
-/

noncomputable section

open scoped BigOperators

namespace Cert.ReferenceIdeal.RefValue

open Idealize.ShloMosaic Idealize.ShloMosaic.ValueIdx Cert.ReferenceIdeal Cert.ReferenceIdeal.Read

/-- Comparing an extended real with zero for "not equal" and reading the resulting bit as a number gives the
    binarized entry: zero at zero, one elsewhere. -/
theorem ind_eq (x : EReal) :
    FloatOps.uitofp (F := Ideal) .f32
        (FloatOps.cmpf (F := Ideal) (φ := .f32) .une x (FloatOps.ofBits (F := Ideal) .f32 0x00000000#32))
      = Cert.GraphLayer.ind x := by
  show (((Ideal.cmp .une x (Ideal.ofBits .f32 0x00000000#32)).toNat : ℝ) : EReal) = _
  rw [Ideal.ofBits_zero_f32]
  unfold Cert.GraphLayer.ind Ideal.cmp
  by_cases h : x = 0
  · simp [h]
  · simp [h]

/-- The binarized adjacency at row `i`, column `j`. -/
theorem bin_at (x1 : (⟨S8192x8192, .f32⟩ : BufTy).Contents (Elt Ideal)) (i j : Fin 8192) :
    val_main_v2 (F := Ideal) x1 (ix2 i j) = Cert.GraphLayer.ind (x1 (ix2 i j)) := by
  rw [val_main_v2_apply, val_main_v1_apply, val_main_v0_apply, val_main_cst_apply]
  exact ind_eq _

/-- The linear layer at row `n`, column `o`: the features' row times the weights' column, plus the bias. -/
theorem lin_at (x0 : (⟨S8192x512, .f32⟩ : BufTy).Contents (Elt Ideal)) (x2 : (⟨S512x512, .f32⟩ : BufTy).Contents (Elt Ideal))
    (x3 : (⟨S512, .f32⟩ : BufTy).Contents (Elt Ideal)) (n : Fin 8192) (o : Fin 512) :
    val_main_v6 (F := Ideal) x0 x2 x3 (ix2 n o) = Cert.GraphLayer.hidden x0 x2 x3 n o := by
  rw [val_main_v6_apply, val_main_v3_apply, val_main_v5_apply, val_main_v4_apply]
  have eL : ∀ k : Fin 512, lidx_main_v3 (ix2 n o) k = ix2 n k := fun k =>
    funext fun a => Fin.ext (by match a with | ⟨0, _⟩ => rfl | ⟨1, _⟩ => rfl)
  have eR : ∀ k : Fin 512, ridx_main_v3 (ix2 n o) k = ix2 k o := fun k =>
    funext fun a => Fin.ext (by match a with | ⟨0, _⟩ => rfl | ⟨1, _⟩ => rfl)
  have eB : idx_main_v4 (idx_main_v5 (ix2 n o)) = ix1 o :=
    funext fun a => Fin.ext (by match a with | ⟨0, _⟩ => rfl)
  rw [eB, Ideal.addf_def]
  unfold Cert.GraphLayer.hidden
  refine congrArg (· + _) (Finset.sum_congr rfl fun k _ => ?_)
  rw [eL k, eR k]

/-- The column count at column `j`: the number of nonzero entries of that column of the adjacency. -/
theorem deg_at (x1 : (⟨S8192x8192, .f32⟩ : BufTy).Contents (Elt Ideal)) (j : Fin 8192) :
    val_main_v7 (F := Ideal) x1 (ix1 j) = Cert.GraphLayer.deg x1 j := by
  rw [val_main_v7_apply, val_main_cst_0_apply, Ideal.ofBits_def, Ideal.ofBits_zero_f32, zero_add]
  unfold Cert.GraphLayer.deg
  refine Finset.sum_congr rfl fun k _ => ?_
  have e : idx_main_v7 (ix1 j) k = ix2 k j :=
    funext fun a => Fin.ext (by match a with | ⟨0, _⟩ => rfl | ⟨1, _⟩ => rfl)
  rw [e, bin_at]

/-- The reference's result at row `m`, column `o` is the layer's output there. -/
theorem ref_out (x0 : (⟨S8192x512, .f32⟩ : BufTy).Contents (Elt Ideal)) (x1 : (⟨S8192x8192, .f32⟩ : BufTy).Contents (Elt Ideal))
    (x2 : (⟨S512x512, .f32⟩ : BufTy).Contents (Elt Ideal)) (x3 : (⟨S512, .f32⟩ : BufTy).Contents (Elt Ideal))
    (m : Fin 8192) (o : Fin 512) :
    val_main_v11 (F := Ideal) x0 x1 x2 x3 (ix2 m o) = Cert.GraphLayer.out x0 x1 x2 x3 m o := by
  rw [val_main_v11_apply, val_main_v8_apply, val_main_v10_apply, val_main_v9_apply, Ideal.hostDivf_def]
  have eD : idx_main_v9 (idx_main_v10 (ix2 m o)) = ix1 m :=
    funext fun a => Fin.ext (by match a with | ⟨0, _⟩ => rfl)
  rw [eD, deg_at]
  unfold Cert.GraphLayer.out
  refine congrArg (Ideal.div · _) (Finset.sum_congr rfl fun k _ => ?_)
  have eA : lidx_main_v8 (ix2 m o) k = ix2 m k :=
    funext fun a => Fin.ext (by match a with | ⟨0, _⟩ => rfl | ⟨1, _⟩ => rfl)
  have eH : ridx_main_v8 (ix2 m o) k = ix2 k o :=
    funext fun a => Fin.ext (by match a with | ⟨0, _⟩ => rfl | ⟨1, _⟩ => rfl)
  rw [eA, eH, bin_at, lin_at]

end Cert.ReferenceIdeal.RefValue

end
-- ==== Proof.Bridge.lean ====
/-
  The kernel's result array is the layer. The last region leaves, at row m and column o, the sum over k of the
  binarized A(m,k) times what it found in the linear layer's array at (k,o), divided by what it found in the degree
  column at m; the linear layer's array holds Σ_c X(k,c)·W(c,o) + b(o) (the bias read through its reshape to a row)
  and the degree column holds column m's count (read through the reshape of the row of counts to a column). Put
  together that is the specification's `out`, entry by entry; and the reference's result is the same function.
-/
import proofs.«180413_j79706003079298_1_alg».proof.Proof.Chain
import proofs.«180413_j79706003079298_1_alg».proof.Proof.Val0
import proofs.«180413_j79706003079298_1_alg».proof.Proof.Val1
import proofs.«180413_j79706003079298_1_alg».proof.Proof.Val2
import proofs.«180413_j79706003079298_1_alg».proof.Proof.RefSide
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-- The layer as a whole array. -/
def layer (X : S8192x512.Idx → EReal) (A : S8192x8192.Idx → EReal) (Wt : S512x512.Idx → EReal) (b : S512.Idx → EReal) :
    S8192x512.Idx → EReal :=
  fun i => Cert.GraphLayer.out X A Wt b (i 0) (i 1)

/-- The bias laid out as a row, read at (0, o). -/
theorem bias_row (b : S512.Idx → EReal) (o : Fin 512) :
    shapeCast S1x512 b shapeCasts_S512_S1x512 (ix2 (0 : Fin 1) o) = b (ix1 o) := by
  refine (shapeCast_apply b shapeCasts_S512_S1x512 (ix2 (0 : Fin 1) o) (ix1 o) ?_)
  rw [Shape.rowMajor_val_one, Shape.rowMajor_val_two]
  show o.val = (0 : Fin 1).val * 512 + o.val
  simp

/-- The row of counts laid out as a column, read at (j, 0). -/
theorem count_col (d : S1x8192.Idx → EReal) (j : Fin 8192) :
    shapeCast S8192x1 d shapeCasts_S1x8192_S8192x1 (ix2 j (0 : Fin 1)) = d (ix2 (0 : Fin 1) j) := by
  refine (shapeCast_apply d shapeCasts_S1x8192_S8192x1 (ix2 j (0 : Fin 1)) (ix2 (0 : Fin 1) j) ?_)
  rw [Shape.rowMajor_val_two, Shape.rowMajor_val_two]
  show (0 : Fin 1).val * 8192 + j.val = j.val * 1 + (0 : Fin 1).val
  simp

/-- The three regions' arrays put together are the layer. -/
theorem assemble (X : S8192x512.Idx → EReal) (A : S8192x8192.Idx → EReal) (Wt : S512x512.Idx → EReal) (b : S512.Idx → EReal) :
    O2 A (H0 X Wt (shapeCast S1x512 b shapeCasts_S512_S1x512)) (shapeCast S8192x1 (D1 A) shapeCasts_S1x8192_S8192x1)
      = layer X A Wt b := by
  funext i
  obtain ⟨p, q, rfl⟩ : ∃ (p : Fin 8192) (q : Fin 512), i = ix2 p q := ⟨i 0, i 1, eq_ix2 i⟩
  show Ideal.div (∑ k : Fin 8192, Cert.GraphLayer.ind (A (ix2 p k)) * H0 X Wt (shapeCast S1x512 b shapeCasts_S512_S1x512) (ix2 k q))
      (shapeCast S8192x1 (D1 A) shapeCasts_S1x8192_S8192x1 (ix2 p (0 : Fin 1)))
    = Ideal.div (∑ k : Fin 8192, Cert.GraphLayer.ind (A (ix2 p k)) * Cert.GraphLayer.hidden X Wt b k q) (Cert.GraphLayer.deg A p)
  rw [count_col]
  refine congrArg₂ Ideal.div (Finset.sum_congr rfl fun k _ => congrArg (Cert.GraphLayer.ind (A (ix2 p k)) * ·) ?_) rfl
  show (∑ c : Fin 512, X (ix2 k c) * Wt (ix2 c q)) + shapeCast S1x512 b shapeCasts_S512_S1x512 (ix2 (0 : Fin 1) q) = _
  rw [bias_row]
  rfl

variable (m : (ℓ : Loc nD τ sig) → Buf (Elt Ideal) ℓ) (ρ : Dev nD → PrngReg)

/-- The result array at the end of the kernel's run is the layer of the launch arguments. -/
theorem result_eq (c : Dev nD) :
    W5 (F := Ideal) m ρ c (Proc.devRef .tc main_v4)
      = layer (m ((c : Thread nD τ).loc main_arg0)) (m ((c : Thread nD τ).loc main_arg1)) (m ((c : Thread nD τ).loc main_arg2)) (m ((c : Thread nD τ).loc main_arg3)) := by
  refine (V5_main_v4 m ρ c).trans ?_
  rw [final2, V4_main_arg1, V4_main_v1, final0, V1_main_arg0, V1_main_arg2, V1_main_v0, V4_main_v3, final1, V2_main_arg1]
  exact assemble _ _ _ _

end Cert.KernelIdeal.Val

namespace Cert.ReferenceIdeal.RefValue

open Idealize.ShloMosaic Idealize.ShloMosaic.ValueIdx Cert.ReferenceIdeal Cert.ReferenceIdeal.Read

/-- The reference's result array is the layer of its arguments. -/
theorem ref_layer (x0 : (⟨S8192x512, .f32⟩ : BufTy).Contents (Elt Ideal)) (x1 : (⟨S8192x8192, .f32⟩ : BufTy).Contents (Elt Ideal)) (x2 : (⟨S512x512, .f32⟩ : BufTy).Contents (Elt Ideal)) (x3 : (⟨S512, .f32⟩ : BufTy).Contents (Elt Ideal)) :
    val_main_v11 (F := Ideal) x0 x1 x2 x3 = fun i => Cert.GraphLayer.out x0 x1 x2 x3 (i 0) (i 1) := by
  funext i
  obtain ⟨p, q, rfl⟩ : ∃ (p : Fin 8192) (q : Fin 512), i = ix2 p q := ⟨i 0, i 1, eq_ix2 i⟩
  exact ref_out x0 x1 x2 x3 p q

end Cert.ReferenceIdeal.RefValue

end
-- ==== Proof.lean ====
/-
  The certificate's five claims.

  The kernel computes a graph-convolution layer in three regions: the linear layer X·W + b block by block; the column
  counts of the binarized adjacency, accumulated over eight row tiles; and the binarized adjacency times the linear
  layer's result, accumulated in a scratch buffer over four column tiles and divided, at the last tile, by the counts.
  Each program's run is proved once, at any float instance, with every buffer's contents named at each boundary
  between the host operations and the regions: the frames read the argument arrays off the last boundary, and the
  value claim reads the result array off it. Over the extended reals the result is, entry by entry,
  (Σ_k [A(m,k) ≠ 0] · (Σ_c X(k,c)·W(c,o) + b(o))) / Σ_i [A(i,m) ≠ 0] — sums over tiles regrouped by commutativity
  and associativity alone, so the precondition is never opened — and the reference's generated run ends at the same
  function of the same arguments.
-/
import proofs.«180413_j79706003079298_1_alg».proof.Defs
import proofs.«180413_j79706003079298_1_alg».proof.Proof.Gen.Kernel
import proofs.«180413_j79706003079298_1_alg».proof.Proof.Gen.KernelIdeal
import proofs.«180413_j79706003079298_1_alg».proof.Proof.Gen.ReferenceIdeal
import proofs.«180413_j79706003079298_1_alg».proof.Proof.Gen.Pre_finite_inputs
import proofs.«180413_j79706003079298_1_alg».proof.Proof.Gen.ReferenceIdeal.Run
import proofs.«180413_j79706003079298_1_alg».proof.Proof.KRun
import proofs.«180413_j79706003079298_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_k : Cert.frame_Kernel := fun m ρ _ =>
  (θ_run Cert.Kernel.defs _ _).mono (fun r h c =>
    ⟨(h c _ (Cert.Kernel.Fr.mem_uc Cert.Kernel.main_arg0 (by decide))).trans (Cert.Kernel.Fr.W5_main_arg0 m ρ c),
      (h c _ (Cert.Kernel.Fr.mem_uc Cert.Kernel.main_arg1 (by decide))).trans (Cert.Kernel.Fr.W5_main_arg1 m ρ c),
      (h c _ (Cert.Kernel.Fr.mem_uc Cert.Kernel.main_arg2 (by decide))).trans (Cert.Kernel.Fr.W5_main_arg2 m ρ c),
      (h c _ (Cert.Kernel.Fr.mem_uc Cert.Kernel.main_arg3 (by decide))).trans (Cert.Kernel.Fr.W5_main_arg3 m ρ c)⟩)
    (Cert.Kernel.Fr.run_all (F := Bits) m ρ)

/-- So does its idealization. -/
theorem frame_ki : Cert.frame_KernelIdeal := fun m ρ _ =>
  (θ_run Cert.KernelIdeal.defs _ _).mono (fun r h c =>
    ⟨(h c _ (Cert.KernelIdeal.Fr.mem_uc Cert.KernelIdeal.main_arg0 (by decide))).trans (Cert.KernelIdeal.Fr.W5_main_arg0 m ρ c),
      (h c _ (Cert.KernelIdeal.Fr.mem_uc Cert.KernelIdeal.main_arg1 (by decide))).trans (Cert.KernelIdeal.Fr.W5_main_arg1 m ρ c),
      (h c _ (Cert.KernelIdeal.Fr.mem_uc Cert.KernelIdeal.main_arg2 (by decide))).trans (Cert.KernelIdeal.Fr.W5_main_arg2 m ρ c),
      (h c _ (Cert.KernelIdeal.Fr.mem_uc Cert.KernelIdeal.main_arg3 (by decide))).trans (Cert.KernelIdeal.Fr.W5_main_arg3 m ρ c)⟩)
    (Cert.KernelIdeal.Fr.run_all (F := Ideal) m ρ)

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with the layer of the (agreeing) arguments in their result arrays. -/
theorem algebraic : Cert.algebraic_KernelIdeal_ReferenceIdeal := by
  intro m ρ m' ρ' _ hagree
  refine ⟨fun c => Cert.KernelIdeal.Val.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Fr.mem_uc Cert.KernelIdeal.main_v4 (by decide))).trans (Cert.KernelIdeal.Val.result_eq m ρ c),
      (h c _ (Cert.KernelIdeal.Fr.mem_uc Cert.KernelIdeal.main_arg0 (by decide))).trans (Cert.KernelIdeal.Fr.W5_main_arg0 m ρ c),
      (h c _ (Cert.KernelIdeal.Fr.mem_uc Cert.KernelIdeal.main_arg1 (by decide))).trans (Cert.KernelIdeal.Fr.W5_main_arg1 m ρ c),
      (h c _ (Cert.KernelIdeal.Fr.mem_uc Cert.KernelIdeal.main_arg2 (by decide))).trans (Cert.KernelIdeal.Fr.W5_main_arg2 m ρ c),
      (h c _ (Cert.KernelIdeal.Fr.mem_uc Cert.KernelIdeal.main_arg3 (by decide))).trans (Cert.KernelIdeal.Fr.W5_main_arg3 m ρ c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, Cert.ReferenceIdeal.RefValue.ref_layer, (hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
